-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x256 : Shape := ⟨2, ![200, 256]⟩
abbrev S200x64 : Shape := ⟨2, ![200, 64]⟩
abbrev S200 : Shape := ⟨1, ![200]⟩
abbrev S200x1 : Shape := ⟨2, ![200, 1]⟩

abbrev nBuf : Space → Nat
  | .hbm => 12
  | .vmem => 14
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x256, .f32⟩
  | .hbm, ⟨9, _⟩ => ⟨S1x256, .f32⟩
  | .hbm, ⟨10, _⟩ => ⟨S1x64, .f32⟩
  | .hbm, ⟨11, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x64, .f32⟩
  | .local _ .vmem, ⟨10, _⟩ => ⟨S1x64, .f32⟩
  | .local _ .vmem, ⟨11, _⟩ => ⟨S400x64, .f32⟩
  | .local _ .vmem, ⟨12, _⟩ => ⟨S400x64, .f32⟩
  | .local _ .vmem, ⟨13, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k0_off1 (i : grid0.Coords) (c0_i32_11 : BitVec 32) : Fin 2 → Nat :=
  let c2_i32 : BitVec 32 := 2#32
  let arg0 : BitVec 32 := BitVec.ofNat 32 (i 0).val
  let v20 : BitVec 32 := Scalar.muli c2_i32 arg0
  let v21 : BitVec 32 := Scalar.addi v20 c0_i32_11
  let c200_i32 : BitVec 32 := 200#32
  let v22 : BitVec 32 := Scalar.muli v21 c200_i32
  let v23 : Index := Scalar.indexCast v22
  let c0_12 : Index := 0#32
  ![v23.toNat, 0]
def k0_cond2 (i : grid0.Coords) : BitVec 1 :=
  let arg0 : BitVec 32 := BitVec.ofNat 32 (i 0).val
  let c25_i32_0 : BitVec 32 := 25#32
  let v3 : BitVec 1 := Scalar.cmpi .sge arg0 c25_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c1_i32_3 : BitVec 32 := 1#32
  let v11 : BitVec 32 := Scalar.addi v10 c1_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256_S1x256 : S256.ShapeCasts S1x256
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  h_S200x256 : 0 < S200x256.numel
  shapeCasts_S200x256_S200x256 : S200x256.ShapeCasts S200x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  reduces_S200x64_S200 : S200x64.Reduces [1] S200
  shapeCasts_S200_S200x1 : S200.ShapeCasts S200x1
  broadcasts_S200x1_S200x64 : S200x1.Broadcasts S200x64
  inb_S400x64_S200x64_0_0 : ∀ a, (![0, 0] : Fin 2 → Nat) a + S200x64.size a ≤ S400x64.size a
  h_S200x64 : 0 < S200x64.numel
  inb_S400x64_S200x64_200_0 : ∀ a, (![200, 0] : Fin 2 → Nat) a + S200x64.size a ≤ S400x64.size a
  dot_S200x10000_S10000x256_S200x256_1_0_0_1_n_n_wf : DotDims.WF S200x10000 S10000x256 S200x256 [1] [0] [0] [1] [] []
  dot_S200x256_S256x256_S200x256_1_0_0_1_n_n_wf : DotDims.WF S200x256 S256x256 S200x256 [1] [0] [0] [1] [] []
  dot_S200x256_S256x64_S200x64_1_0_0_1_n_n_wf : DotDims.WF S200x256 S256x64 S200x64 [1] [0] [0] [1] [] []
  hrank0 : 0 < grid0.rank
  k0_off1_inb : ∀ i : grid0.Coords, ∀ (k0_h1 : k0_cond1 i = 1#1), ∀ (r : Fin 2), ∀ a, (k0_off1 i (BitVec.ofNat 32 r.val)) a + S200x256.size a ≤ S10000x256.size a
  k0_off1_packedbf16 : ∀ i : grid0.Coords, ∀ (k0_h1 : k0_cond1 i = 1#1), ∀ (r : Fin 2), (Rect.unit (s := S10000x256) (k0_off1 i (BitVec.ofNat 32 r.val)) S200x256.size (k0_off1_inb i k0_h1 r)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .f32 = 32 ∨ (Rect.block (s := S10000x256) S10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x64.size a ≤ S10000x64.size a
  hwx0_9 : ∀ i : grid0.Coords, EltTy.bits .f32 = 32 ∨ (Rect.block (s := S10000x64) S400x64.size (cc0_transform_9 i) (hinb0_9 i)).WholeWords (EltTy.packing .f32)

variable [Facts₀]

def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S200x256_S256x64_S200x64_1_0_0_1_n_n : DotDims S200x256 S256x64 S200x64 where
  lhsContracting := [1]
  rhsContracting := [0]
  lhsNonContracting := [0]
  rhsNonContracting := [1]
  lhsBatch := []
  rhsBatch := []
  wf := dot_S200x256_S256x64_S200x64_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 43
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S10000x256, .f32⟩
  | .hbm, ⟨9, _⟩ => ⟨S10000x256, .f32⟩
  | .hbm, ⟨10, _⟩ => ⟨S1x256, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S10000x256, .f32⟩
  | .hbm, ⟨18, _⟩ => ⟨S1x256, .f32⟩
  | .hbm, ⟨19, _⟩ => ⟨S10000x256, .f32⟩
  | .hbm, ⟨20, _⟩ => ⟨S10000x256, .f32⟩
  | .hbm, ⟨21, _⟩ => ⟨S_, .f32⟩
  | .hbm, ⟨22, _⟩ => ⟨S10000x256, .f32⟩
  | .hbm, ⟨23, _⟩ => ⟨S10000x256, .f32⟩
  | .hbm, ⟨24, _⟩ => ⟨S10000x64, .f32⟩
  | .hbm, ⟨25, _⟩ => ⟨S1x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S_, .f32⟩
  | .hbm, ⟨38, _⟩ => ⟨S10000, .f32⟩
  | .hbm, ⟨39, _⟩ => ⟨S10000x1, .f32⟩
  | .hbm, ⟨40, _⟩ => ⟨S10000x1, .f32⟩
  | .hbm, ⟨41, _⟩ => ⟨S10000x64, .f32⟩
  | .hbm, ⟨42, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_call2_cst_0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_cst_1 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_v16 : Ref sig .tc := ⟨.hbm, 42, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.KBBase.lean ====
/-
  What the frame proof of the printed kernel's program shares: the contents of the TensorCore's buffers when the
  region is entered (after the three bias reshapes), each window's block at a grid point read off those contents,
  the two branch conditions of the body decided over the 50 grid points (the first 25 points run the first layer,
  the last 25 the second layer and the output), where the output window is idle, and the region's invariant
  with the hidden-layer scratch buffer named.
-/
import proofs.«116359_g171798692301_cont_8to1_52_15_alg».proof.Proof.Gen.Kernel.Launch
import proofs.«116359_g171798692301_cont_8to1_52_15_alg».proof.Proof.Gen.Kernel.Skeleton
import proofs.«116359_g171798692301_cont_8to1_52_15_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered: after the three reshapes of the bias vectors. -/
abbrev V0 (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The first-layer branch is taken. -/
abbrev cond0_0 (i : grid0.Coords) : Prop := k0_cond1 i = 1#1
theorem hcond0_0 : ∀ t : Fin cfg0.N, cond0_0 (grid0.coords t) ↔ t.val < 25 :=
  (by decide +kernel : ∀ t : Fin grid0.N, cond0_0 (grid0.coords t) ↔ t.val < 25)
/-- The second-layer branch is taken. -/
abbrev cond0_1 (i : grid0.Coords) : Prop := k0_cond2 i = 1#1
theorem hcond0_1 : ∀ t : Fin cfg0.N, cond0_1 (grid0.coords t) ↔ 25 ≤ t.val :=
  (by decide +kernel : ∀ t : Fin grid0.N, cond0_1 (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- At the first-layer points the output window is idle: the body stores nothing into it, -/
theorem idleAt0_9_A : ∀ t : Fin cfg0.N, cond0_0 (grid0.coords t) → ¬cond0_1 (grid0.coords t) → cfg0.idle 9 (grid0.coords t) = true := by decide +kernel
/-- and the pipeline does not write its block back there. -/
theorem noFlush0_9_A : ∀ t : Fin cfg0.N, cond0_0 (grid0.coords t) → ¬cond0_1 (grid0.coords t) → (cfg0.win 9).flush t = false := by decide +kernel
/-- At the second-layer points the output window is live. -/
theorem liveAt0_9_B : ∀ t : Fin cfg0.N, ¬cond0_0 (grid0.coords t) → cond0_1 (grid0.coords t) → cfg0.idle 9 (grid0.coords t) = false := by decide +kernel

/-! ## The staging memrefs at a point -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x64 .f32 := win0_9.stage (cfg0.slots t 9)
abbrev hs0_9 (t : Fin cfg0.N) : (ms0_9 t).IsWhole := hstage0_9 ((cfg0.slots t 9).cast nbuf0_9)
/-- The hidden-layer scratch buffer: a whole scoped buffer of the kernel's own, carried from point to point. -/
abbrev scM0_0 : Memref sig .tc .vmem S10000x256 .bf16 := Memref.whole cc0_scratch0

/-- The class invariant with the scratch buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KBRunA.lean ====
/-
  The body at a first-layer point, run symbolically: from the nine input blocks in their staging buffers, the
  output's staging buffer at anything (it is handed back untouched) and the hidden-layer scratch buffer at given
  contents, the body ends with the inputs as they were and the scratch buffer overwritten by two pieces, the two
  200-row halves of the point's rows of the first layer.
-/
import proofs.«116359_g171798692301_cont_8to1_52_15_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first-layer branch stores into the scratch buffer (last first), with the body's triple. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x256 .bf16) (harg11 : arg11.IsWhole) (hc0 : cond0_0 i) (hc1 : ¬cond0_1 i)
    (x0 : Vec F S200x10000 .f32) (x1 : Vec F S200x10000 .f32) (x2 : Vec F S10000x256 .f32) (x3 : Vec F S256x256 .f32) (x4 : Vec F S1x256 .f32) (x5 : Vec F S256x256 .f32) (x6 : Vec F S1x256 .f32) (x7 : Vec F S256x64 .f32) (x8 : Vec F S1x64 .f32) (xs0 : Vec F S10000x256 .bf16) :
    { LS0 : List (View.Piece (Elt F) S10000x256 .bf16) //
      ∀ (xi9 : Vec F S400x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (arg11.view.loc (c : Thread nD τ) ↦[arg11.view.set]{fullShare} arg11.view.writes (Elt F) (harg11.unread xs0) LS0)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11) K } := by
  refine ⟨?_, fun xi9 E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexact HS0

end Cert.Kernel.Gen

end
-- ==== Proof.KBRunB.lean ====
/-
  The body at a second-layer point, run symbolically: from the nine input blocks in their staging buffers, the
  hidden-layer scratch buffer at given contents (only read) and the output's staging buffer at anything, the body
  ends with the inputs and the scratch as they were and the output's buffer overwritten by two pieces, the two
  200-row halves of the point's 400 output rows.
-/
import proofs.«116359_g171798692301_cont_8to1_52_15_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the second-layer branch stores into the output's staging buffer (last first), with the body's triple. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x256 .bf16) (harg11 : arg11.IsWhole) (hc0 : ¬cond0_0 i) (hc1 : cond0_1 i)
    (x0 : Vec F S200x10000 .f32) (x1 : Vec F S200x10000 .f32) (x2 : Vec F S10000x256 .f32) (x3 : Vec F S256x256 .f32) (x4 : Vec F S1x256 .f32) (x5 : Vec F S256x256 .f32) (x6 : Vec F S1x256 .f32) (x7 : Vec F S256x64 .f32) (x8 : Vec F S1x64 .f32) (xs0 : Vec F S10000x256 .bf16) :
    { L9 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; isplitr; · ipureintro; exact harg11.read_unread _
    iexact HS0

end Cert.Kernel.Gen

end
-- ==== Proof.KBData.lean ====
/-
  The proof data of the printed kernel's one pipeline.

  The first layer's result, as ONE array of 10000 rows: row r is stored at grid point r / 400, in the first or the
  second 200-row half of that point's 400 rows, from the point's block of the adjacency matrix (`H1`).  The
  hidden-layer scratch buffer holds rows 0 .. 400·n − 1 of it before point n (nothing is said of the other rows),
  all of it from point 25 on.  The output window's staging buffer after a second-layer point holds the two pieces
  that point's branch stores, computed from the point's blocks and the whole first layer; at a first-layer point
  the window is idle and nothing is said.  Windows 0 and 1 read one array, the adjacency matrix: they hold the two
  halves of its share.
-/
import proofs.«116359_g171798692301_cont_8to1_52_15_alg».proof.Proof.KBRunA
import proofs.«116359_g171798692301_cont_8to1_52_15_alg».proof.Proof.KBRunB
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VO0_9 : View sig .tc .vmem S400x64 .f32 := (Memref.whole cc0_stg9_0 : Memref sig .tc .vmem S400x64 .f32).view

/-- Row r of the hidden layer is stored at grid point r / 400, one of the first 25 points. -/
theorem N_lt (y : S10000x256.Idx) : (y 0).val / 400 < cfg0.N := by
  have h := ValueIdx.idx2_lt0 y
  have : cfg0.N = 50 := N_0
  omega

/-- THE FIRST LAYER, whole: entry (r, j) is entry (r mod 200, j) of the block the point r / 400 computes for its
    first (r mod 400 < 200) or second half, from that point's blocks of the adjacency matrix and the whole
    feature, weight and bias arrays. -/
def H1 (c : Dev nD) : Vec F S10000x256 .bf16 := fun y =>
  if (y 0).val % 400 < 200 then
    k0_pay4 (iblk m c 2 ⟨(y 0).val / 400, N_lt y⟩) (iblk m c 0 ⟨(y 0).val / 400, N_lt y⟩) (iblk m c 3 ⟨(y 0).val / 400, N_lt y⟩) (iblk m c 4 ⟨(y 0).val / 400, N_lt y⟩)
      (ValueIdx.ix2 (⟨(y 0).val % 200, Nat.mod_lt _ (by decide)⟩ : Fin 200) (⟨(y 1).val, ValueIdx.idx2_lt1 y⟩ : Fin 256))
  else
    k0_pay1 (k0_pay5 (iblk m c 2 ⟨(y 0).val / 400, N_lt y⟩) (iblk m c 1 ⟨(y 0).val / 400, N_lt y⟩) (iblk m c 3 ⟨(y 0).val / 400, N_lt y⟩) (iblk m c 4 ⟨(y 0).val / 400, N_lt y⟩))
      (ValueIdx.ix2 (⟨(y 0).val % 200, Nat.mod_lt _ (by decide)⟩ : Fin 200) (⟨(y 1).val, ValueIdx.idx2_lt1 y⟩ : Fin 256))

/-- What the scratch buffer is known to hold before point n: the first 400·n rows of the first layer. -/
def Inv (c : Dev nD) (n : ℕ) (X : Vec F S10000x256 .bf16) : Prop :=
  ∀ y : S10000x256.Idx, (y 0).val < 400 * n → X y = H1 m c y

/-- From point 25 on that is the whole first layer. -/
theorem Inv_full (c : Dev nD) (n : ℕ) (hn : 25 ≤ n) (X : Vec F S10000x256 .bf16) (h : Inv m c n X) : X = H1 m c :=
  funext fun y => h y (by have := ValueIdx.idx2_lt0 y; omega)

/-- The two pieces the first-layer branch stores into the scratch buffer at point t (last first), found by the run. -/
def piecesA (c : Dev nD) (t : Fin cfg0.N) (h : t.val < 25) (X : Vec F S10000x256 .bf16) : List (View.Piece (Elt F) S10000x256 .bf16) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    ((hcond0_0 t).mpr h) (fun hc => absurd ((hcond0_1 t).mp hc) (by omega)) (iblk m c 0 t) (iblk m c 1 t) (iblk m c 2 t) (iblk m c 3 t) (iblk m c 4 t) (iblk m c 5 t) (iblk m c 6 t) (iblk m c 7 t) (iblk m c 8 t) X).1

/-- The two pieces the second-layer branch stores into the output's staging buffer at point t (last first), found by
    the run, the scratch buffer holding the whole first layer. -/
def piecesB (c : Dev nD) (t : Fin cfg0.N) (h : 25 ≤ t.val) : List (View.Piece (Elt F) S400x64 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun hc => absurd ((hcond0_0 t).mp hc) (by omega)) ((hcond0_1 t).mpr h) (iblk m c 0 t) (iblk m c 1 t) (iblk m c 2 t) (iblk m c 3 t) (iblk m c 4 t) (iblk m c 5 t) (iblk m c 6 t) (iblk m c 7 t) (iblk m c 8 t) (H1 m c)).1

/-- What the output window's staging buffer holds after the body at point t: at a second-layer point the two pieces
    the branch stores, read back (they tile the block); at a first-layer point nothing anyone reads. -/
def out9 (c : Dev nD) (t : Fin cfg0.N) : Vec F S400x64 .f32 :=
  if h : 25 ≤ t.val then VO0_9.read (Elt F) (VO0_9.writes (Elt F) VO0_9.junk (piecesB m c t h))
  else VO0_9.read (Elt F) VO0_9.junk

/-- The region invariant before position n: before the first point the class's (the scratch at anything); afterwards
    the scratch at contents that agree with the first layer on its first 400·n rows, and the generator register at
    some state. -/
def PhiS (c : Dev nD) : (n : ℕ) → n ≤ cfg0.N → sProp 𝕄
  | 0, _ => Pipeline.ΦA spec0 c
  | n + 1, _ => iprop(iprop(∃ X, ⌜Inv m c (n + 1) X⌝ ∗ owns (c : Thread nD τ) scM0_0 fullShare X) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(∃ X, ⌜Inv m c (n + 1) X⌝ ∗ owns (c : Thread nD τ) scM0_0 fullShare X) ∗ (∃ r, prngReg c r)) := rfl

theorem PhiS_pos (c : Dev nD) (n : ℕ) (h : n ≤ cfg0.N) (hz : n ≠ 0) :
    PhiS m c n h = iprop(iprop(∃ X, ⌜Inv m c n X⌝ ∗ owns (c : Thread nD τ) scM0_0 fullShare X) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

end Cert.Kernel.Gen

end
-- ==== Proof.KBStepA.lean ====
/-
  One first-layer point keeps the scratch buffer's invariant.

  Before point t the scratch buffer agrees with the first layer on rows 0 .. 400·t − 1.  The point stores two pieces of
  200 whole rows each, at rows 400·t and 400·t + 200: the point's two half-blocks of the first layer.  A row of the
  new contents below 400·t is untouched, a row in [400·t, 400·t + 200) reads the first piece at the row minus 400·t,
  a row in [400·t + 200, 400·t + 400) the second at the row minus 400·t − 200; in each case that is the first layer's
  entry, whose defining point is row / 400 = t and whose local row is row mod 200.
-/
import proofs.«116359_g171798692301_cont_8to1_52_15_alg».proof.Proof.KBData
import Idealize.ShloMosaic.Lib.Pipeline.Value
import Idealize.ShloMosaic.Lib.WritesUnit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two spellings of the zero offsets. -/
theorem zero_off2 : (![0, 0] : Fin 2 → Nat) = fun _ => 0 := funext fun a => by fin_cases a <;> rfl

/-- The first piece of point t starts at row 400·t, -/
theorem off_lo : ∀ t : Fin cfg0.N, k0_off1 (grid0.coords t) 0#32 = ![400 * t.val, 0] :=
  (by decide +kernel : ∀ t : Fin grid0.N, k0_off1 (grid0.coords t) 0#32 = ![400 * t.val, 0])

/-- the second at row 400·t + 200. -/
theorem off_hi : ∀ t : Fin cfg0.N, k0_off1 (grid0.coords t) 1#32 = ![400 * t.val + 200, 0] :=
  (by decide +kernel : ∀ t : Fin grid0.N, k0_off1 (grid0.coords t) 1#32 = ![400 * t.val + 200, 0])

/-- After a first-layer point the scratch buffer agrees with the first layer on 400 more rows. -/
theorem inv_step_A (c : Dev nD) (t : Fin cfg0.N) (h : t.val < 25) (X : Vec F S10000x256 .bf16) (hX : Inv m c t.val X) :
    Inv m c (t.val + 1)
      (scM0_0.view.read (Elt F)
        (scM0_0.view.writes (Elt F) ((Memref.isWhole_whole cc0_scratch0).unread X) (piecesA m c t h X))) := by
  unfold Inv at hX ⊢
  intro y hy
  have hy1 : (y 1).val < 256 := ValueIdx.idx2_lt1 y
  unfold piecesA kernelRun0_A
  dsimp only
  sl_unfold_run_names
  simp only [View.readAt_eq_ld, Memref.IsWhole.read_unread, View.ld_unit_zero (S := S10000x256) zero_off2,
    View.ld_unit_zero (S := S200x10000) zero_off2, View.ld_unit_zero (S := S256x256) zero_off2,
    View.ld_unit_zero (S := S1x256) zero_off2]
  by_cases hA : (y 0).val < 400 * t.val
  · refine (View.read_writes_cons_rows_of_not_mem _ _ _ _ _ y (off_hi t) rfl (Or.inl (by omega))).trans ?_
    refine (View.read_writes_cons_rows_of_not_mem _ _ _ _ _ y (off_lo t) rfl (Or.inl hA)).trans ?_
    rw [View.writes_nil]
    exact (congrFun ((Memref.isWhole_whole cc0_scratch0).read_unread X) y).trans (hX y hA)
  · have ht : (⟨(y 0).val / 400, N_lt y⟩ : Fin cfg0.N) = t := Fin.ext (by show (y 0).val / 400 = t.val; omega)
    by_cases hB : (y 0).val < 400 * t.val + 200
    · refine (View.read_writes_cons_rows_of_not_mem _ _ _ _ _ y (off_hi t) rfl (Or.inl hB)).trans ?_
      refine (View.read_writes_cons_rows_of_mem _ _ _ _ _ y
        (ValueIdx.ix2 (⟨(y 0).val % 200, Nat.mod_lt _ (by decide)⟩ : Fin 200) (⟨(y 1).val, hy1⟩ : Fin 256)) (off_lo t)
        (by show (y 0).val = 400 * t.val + (y 0).val % 200; omega) rfl).trans ?_
      unfold H1
      rw [if_pos (by omega)]
      subst ht
      rfl
    · refine (View.read_writes_cons_rows_of_mem _ _ _ _ _ y
        (ValueIdx.ix2 (⟨(y 0).val % 200, Nat.mod_lt _ (by decide)⟩ : Fin 200) (⟨(y 1).val, hy1⟩ : Fin 256)) (off_hi t)
        (by show (y 0).val = 400 * t.val + 200 + (y 0).val % 200; omega) rfl).trans ?_
      unfold H1
      rw [if_neg (by omega)]
      subst ht
      rfl

end Cert.Kernel.Gen

end
-- ==== Proof.KBBody.lean ====
/-
  The body obligation of the printed kernel's pipeline, at a generic grid point.  At a first-layer point (t < 25)
  the body is handed the scratch buffer at contents that agree with the first layer on its first 400·t rows and
  hands it back agreeing on 400·(t+1) rows; the output window is idle and its buffer comes back untouched.  At a
  second-layer point the scratch buffer holds the whole first layer, is only read, and the output window's
  buffer comes back holding the point's two pieces.
-/
import proofs.«116359_g171798692301_cont_8to1_52_15_alg».proof.Proof.KBData
import proofs.«116359_g171798692301_cont_8to1_52_15_alg».proof.Proof.KBStepA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second-layer branch's two pieces tile the output block. -/
theorem coverB (c : Dev nD) (t : Fin cfg0.N) (h : 25 ≤ t.val) (y : S400x64.Idx) :
    ∃ pc ∈ piecesB m c t h, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun hc => absurd ((hcond0_0 t).mp hc) (by omega)) ((hcond0_1 t).mpr h) (iblk m c 0 t) (iblk m c 1 t) (iblk m c 2 t) (iblk m c 3 t) (iblk m c 4 t) (iblk m c 5 t) (iblk m c 6 t) (iblk m c 7 t) (iblk m c 8 t) (H1 m c)).1 S200x64.size (by sl_kernel_rfl) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h : t.val < 25
  · have hc0 : cond0_0 (grid0.coords t) := (hcond0_0 t).mpr h
    have hc1 : ¬cond0_1 (grid0.coords t) := fun hc => absurd ((hcond0_1 t).mp hc) (by omega)
    rw [Dat.leavesExact_idle (dats m 0 c) 9 t (idleAt0_9_A t hc0 hc1) (noFlush0_9_A t hc0 hc1)]
    have key : ∀ X : Vec F S10000x256 .bf16, Inv m c t.val X →
        iprop(owns (c : Thread nD τ) scM0_0 fullShare X ∗ (∃ r, prngReg c r) ∗ (dats m 0 c).owesAt () t.castSucc
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ owns (c : Thread nD τ) (ms0_3 t) fullShare (iblk m c 3 t)
          ∗ owns (c : Thread nD τ) (ms0_4 t) fullShare (iblk m c 4 t)
          ∗ owns (c : Thread nD τ) (ms0_5 t) fullShare (iblk m c 5 t)
          ∗ owns (c : Thread nD τ) (ms0_6 t) fullShare (iblk m c 6 t)
          ∗ owns (c : Thread nD τ) (ms0_7 t) fullShare (iblk m c 7 t)
          ∗ owns (c : Thread nD τ) (ms0_8 t) fullShare (iblk m c 8 t)
          ∗ (∃ d, owns (c : Thread nD τ) (ms0_9 t) fullShare ((dats m 0 c).before 9 t d)))
        ⊢ wp frame (wpE (defs₀ (F := F)) Variants.none c none) Set.univ
            (cc0__gcn_body (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _))
            (fun _ => iprop(iprop(iprop(∃ X, ⌜Inv m c (t.val + 1) X⌝ ∗ owns (c : Thread nD τ) scM0_0 fullShare X) ∗ (∃ r, prngReg c r)) ∗ (dats m 0 c).owesAt () t.castSucc
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ owns (c : Thread nD τ) (ms0_3 t) fullShare (iblk m c 3 t)
          ∗ owns (c : Thread nD τ) (ms0_4 t) fullShare (iblk m c 4 t)
          ∗ owns (c : Thread nD τ) (ms0_5 t) fullShare (iblk m c 5 t)
          ∗ owns (c : Thread nD τ) (ms0_6 t) fullShare (iblk m c 6 t)
          ∗ owns (c : Thread nD τ) (ms0_7 t) fullShare (iblk m c 7 t)
          ∗ owns (c : Thread nD τ) (ms0_8 t) fullShare (iblk m c 8 t)
          ∗ (∃ d, owns (c : Thread nD τ) (ms0_9 t) fullShare ((dats m 0 c).before 9 t d)))) := by
      intro X hX
      iintro ⟨HS0, Hg, Ho, H0, H1, H2, H3, H4, H5, H6, H7, H8, ⟨%d9, H9⟩⟩
      iapply ((kernelRun0_A c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, HS0⟩
      isplitl [HS0 Hg]
      · isplitl [HS0]
        · iexists _; isplitr
          · ipureintro; exact inv_step_A m c t h X hX
          · unfold owns; iexists _; isplitr; · ipureintro; rfl
            iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    by_cases hz : t.val = 0
    · rw [PhiS_castSucc m c t, PhiS_zero m c _ _ hz, PhiA0_eq]
      iintro ⟨⟨⟨%X, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (key X (fun y hy => absurd hy (by rw [hz]; omega)))
      isplitl [HS0]; · iexact HS0
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m c t, PhiS_pos m c _ _ hz]
      iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (key X hX)
      isplitl [HS0]; · iexact HS0
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have h' : 25 ≤ t.val := Nat.le_of_not_lt h
    have hc0 : ¬cond0_0 (grid0.coords t) := fun hc => absurd ((hcond0_0 t).mp hc) (by omega)
    have hc1 : cond0_1 (grid0.coords t) := (hcond0_1 t).mpr h'
    have hz : t.val ≠ 0 := by omega
    rw [show (dats m 0 c).leavesExact 9 t = owns (c : Thread nD τ) (ms0_9 t) fullShare ((dats m 0 c).after 9 t) from by
      unfold Dat.leavesExact; rw [liveAt0_9_B t hc0 hc1], after0_9]
    unfold out9; rw [dif_pos h']
    rw [PhiS_castSucc m c t, PhiS_pos m c _ _ hz]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl : X = H1 m c := Inv_full m c t.val h' X hX
    iapply ((kernelRun0_B c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) (H1 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, ⟨%e9, H9⟩, HS0⟩
    isplitl [HS0 Hg]
    · isplitl [HS0]
      · iexists _; isplitr
        · ipureintro; exact fun y _ => rfl
        · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB m c t h')

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨%X, -, HS0⟩, Hg⟩
  isplitl [HS0]
  · iexists _; iexact HS0
  iexact Hg

end Cert.Kernel.Gen

end
-- ==== Proof.KBLaunch.lean ====
/-
  The launch of the printed kernel's program. Its pallas_call hands ONE array — the adjacency matrix — to two
  input windows, so the two windows' arrays are not distinct buffers: the full share of that buffer is dealt between
  them, the left half to window 0 and the right half to window 1, and every other array is held whole by its one
  window. From that split of the buffers behind the arrays, the region rule for shared arrays gives the run: every
  weakly fair execution terminates, every array ends at what the proof data compute for it, and every buffer the
  region bypasses ends as it was when the region was entered.
-/
import proofs.«116359_g171798692301_cont_8to1_52_15_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the arrays -/

/-- The ten windows read nine buffers: the adjacency matrix is behind windows 0 and 1. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_call0_v0) ↦{fullShare} W main_call0_v0)
          ∗ (((c : Thread nD τ).loc main_arg4) ↦{fullShare} W main_arg4) ∗ (((c : Thread nD τ).loc main_call0_v1) ↦{fullShare} W main_call0_v1)
          ∗ (((c : Thread nD τ).loc main_arg6) ↦{fullShare} W main_arg6) ∗ (((c : Thread nD τ).loc main_call0_v2) ↦{fullShare} W main_call0_v2)
          ∗ (((c : Thread nD τ).loc main_v0) ↦{fullShare} W main_v0)) := by
  unfold Pipeline.arrBufs
  exact bigSep_eq_bigSepL_of_eq [main_arg1, main_arg0, main_arg2, main_call0_v0, main_arg4, main_call0_v1, main_arg6, main_call0_v2, main_v0]
    (by decide) (by decide) _

/-- One window's array in the proof data's `arrays` at the region's entry: a whole buffer, at the window's share, at
    the entry contents. -/
theorem arr_entry (c : Dev nD) (dat : Dat τ (Elt F) Unit ℕ (UR sig nD τ) ℕ cfg0 c) (w : Fin cfg0.W) (q : PosShare TreeShare)
    (hs : dat.share w = q) (hA : dat.A w = V m c (Pipeline.arrRef spec0 w)) :
    ((cfg0.win w).arr.view.loc (c : Thread nD τ) ↦[(cfg0.win w).arr.view.set]{dat.share w} dat.arrAt w 0 : sProp 𝕄)
      = (((c : Thread nD τ).loc (Pipeline.arrRef spec0 w)) ↦{q} V m c (Pipeline.arrRef spec0 w)) := by
  rw [(arr_whole0 w).set_eq_univ, hs, show dat.arrAt w 0 = dat.A w from rfl, hA]

/-! ## The split -/

/-- The buffers behind the arrays, each whole at the full share at the entry contents, make the proof data's arrays at
    the region's entry: the adjacency matrix's full share is its left half, window 0's, and its right half,
    window 1's; every other buffer is its one window's, whole. -/
theorem arrays_shared (c : Dev nD) (dat : Dat τ (Elt F) Unit ℕ (UR sig nD τ) ℕ cfg0 c)
    (hq0 : dat.q 0 = fullShare.left) (hq1 : dat.q 1 = fullShare.right)
    (hq : ∀ w : Fin cfg0.W, w ≠ 0 → w ≠ 1 → dat.q w = fullShare)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_neg (by decide), hq 2 (by decide) (by decide)]
  have hs3 : dat.share 3 = fullShare := by unfold Dat.share; rw [if_neg (by decide), hq 3 (by decide) (by decide)]
  have hs4 : dat.share 4 = fullShare := by unfold Dat.share; rw [if_neg (by decide), hq 4 (by decide) (by decide)]
  have hs5 : dat.share 5 = fullShare := by unfold Dat.share; rw [if_neg (by decide), hq 5 (by decide) (by decide)]
  have hs6 : dat.share 6 = fullShare := by unfold Dat.share; rw [if_neg (by decide), hq 6 (by decide) (by decide)]
  have hs7 : dat.share 7 = fullShare := by unfold Dat.share; rw [if_neg (by decide), hq 7 (by decide) (by decide)]
  have hs8 : dat.share 8 = fullShare := by unfold Dat.share; rw [if_neg (by decide), hq 8 (by decide) (by decide)]
  have hs9 : dat.share 9 = fullShare := by unfold Dat.share; rw [if_pos (by decide)]
  rw [arrBufs0_eq]
  unfold Dat.arrays
  rw [bigSep_W0, arr_entry m c dat 0 _ hs0 (hA 0), arr_entry m c dat 1 _ hs1 (hA 1), arr_entry m c dat 2 _ hs2 (hA 2),
    arr_entry m c dat 3 _ hs3 (hA 3), arr_entry m c dat 4 _ hs4 (hA 4), arr_entry m c dat 5 _ hs5 (hA 5),
    arr_entry m c dat 6 _ hs6 (hA 6), arr_entry m c dat 7 _ hs7 (hA 7), arr_entry m c dat 8 _ hs8 (hA 8),
    arr_entry m c dat 9 _ hs9 (hA 9)]
  iintro ⟨H1, H0, H2, Hv0, H4, Hv1, H6, Hv2, Ho⟩
  ihave Hs := (pointsTo_share (PosShare.mem_left_op_right fullShare)).1 $$ H1
  icases Hs with ⟨Hl, Hr⟩
  isplitl [Hl]; · iexact Hl
  isplitl [Hr]; · iexact Hr
  isplitl [H0]; · iexact H0
  isplitl [H2]; · iexact H2
  isplitl [Hv0]; · iexact Hv0
  isplitl [H4]; · iexact H4
  isplitl [Hv1]; · iexact Hv1
  isplitl [H6]; · iexact H6
  isplitl [Hv2]; · iexact Hv2
  iexact Ho

/-! ## The run -/

set_option backward.isDefEq.respectTransparency.types false in
/-- The run of the program from the split: every weakly fair execution of @main on the TensorCore terminates, every
    array of the pipeline ends at what the proof data compute for it — windows 0 and 1, on one buffer, each its own
    `arrAt … N`, both that buffer's final contents — and every unscoped buffer that is no window's array ends at its
    contents at the region's entry. The proof data deal the adjacency matrix's share in halves between windows 0 and 1
    (`hq0`, `hq1`), hold every other input array whole (`hq`), owe nothing (`howed`), start from the entry contents
    (`hA`), and their invariant is reached from the class invariant before the first point and yields it back after
    the last (`hin`, `hout`). -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq : ∀ c (w : Fin cfg0.W), w ≠ 0 → w ≠ 1 → (dats 0 c).q w = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_shared m c (dats 0 c) (hq0 c) (hq1 c) (hq c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (V m c) s')
      isplitl [HU] <;> iassumption)
    (hQ := fun s h c => ⟨(h c).1, Pipeline.rest_of_restP Pipeline.Prefetch.none spec0 (fun k => k.elim0) c (V m c) s (fun k => k.elim0) (h c).2.1 (h c).2.2⟩)

end Cert.Kernel.Gen

end
-- ==== Proof.KBFrameOf.lean ====
/-
  The frame claim's post from the frame run's: the eight argument arrays end as launched.  Five of them are arrays of
  input windows (the adjacency matrix of two), which the pipeline never writes; the three bias vectors bypass the
  region (the kernel reads their reshaped copies), and the reshapes before the region write none of the eight.
-/
import proofs.«116359_g171798692301_cont_8to1_52_15_alg».proof.Proof.KBData

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- THE FRAME from a frame run. -/
theorem frame_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩) h

end Cert.Kernel.Gen

end
-- ==== Proof.KBFrame.lean ====
/-
  The frame run of the printed kernel's program and its frame: at the compiled mesh, for any float values, from any
  memory with zero counters, every weakly fair execution of @main on the TensorCores terminates, nothing faulting, with
  every array of the pipeline at what the proof data say and every other unscoped buffer as the region found it; so the
  eight argument arrays end as launched.
-/
import proofs.«116359_g171798692301_cont_8to1_52_15_alg».proof.Proof.KBBody
import proofs.«116359_g171798692301_cont_8to1_52_15_alg».proof.Proof.KBLaunch
import proofs.«116359_g171798692301_cont_8to1_52_15_alg».proof.Proof.KBFrameOf

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Windows 2 … 9 hold their arrays at the full share (windows 0 and 1 the two halves of the adjacency matrix's). -/
theorem q_full (c : Dev nD) (w : Fin cfg0.W) (h0 : w ≠ 0) (h1 : w ≠ 1) : (dats (F := F) m 0 c).q w = fullShare := by
  match w with
  | ⟨0, _⟩ => exact absurd rfl h0
  | ⟨1, _⟩ => exact absurd rfl h1
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

theorem run_main : θ_run defs (onTc (τ := τ) (main (F := F))) (s₀ m ρ) (Pipeline.FramePost cfgs (dats m) 0 (V m)) :=
  run_shared m ρ (dats m) (fun c => (body_obligation m c).loose) (fun _ => rfl) (fun _ => rfl) (q_full m)
    (fun _ _ => rfl) (A_eq m) (hin m) (hout m)

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (run_main m ρ)

end Cert.Kernel.Gen

end
-- ==== Proof.KIBase.lean ====
/-
  What the frame proof of the idealized kernel's program shares: the contents of the TensorCore's buffers when the
  region is entered (after the three bias reshapes), each window's block at a grid point read off those contents,
  the two branch conditions of the body decided over the 50 grid points (the first 25 points run the first layer,
  the last 25 the second layer and the output), where the output window is idle, and the region's invariant
  with the hidden-layer scratch buffer named.
-/
import proofs.«116359_g171798692301_cont_8to1_52_15_alg».proof.Proof.Gen.KernelIdeal.Launch
import proofs.«116359_g171798692301_cont_8to1_52_15_alg».proof.Proof.Gen.KernelIdeal.Skeleton
import proofs.«116359_g171798692301_cont_8to1_52_15_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered: after the three reshapes of the bias vectors. -/
abbrev V0 (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The first-layer branch is taken. -/
abbrev cond0_0 (i : grid0.Coords) : Prop := k0_cond1 i = 1#1
theorem hcond0_0 : ∀ t : Fin cfg0.N, cond0_0 (grid0.coords t) ↔ t.val < 25 :=
  (by decide +kernel : ∀ t : Fin grid0.N, cond0_0 (grid0.coords t) ↔ t.val < 25)
/-- The second-layer branch is taken. -/
abbrev cond0_1 (i : grid0.Coords) : Prop := k0_cond2 i = 1#1
theorem hcond0_1 : ∀ t : Fin cfg0.N, cond0_1 (grid0.coords t) ↔ 25 ≤ t.val :=
  (by decide +kernel : ∀ t : Fin grid0.N, cond0_1 (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- At the first-layer points the output window is idle: the body stores nothing into it, -/
theorem idleAt0_9_A : ∀ t : Fin cfg0.N, cond0_0 (grid0.coords t) → ¬cond0_1 (grid0.coords t) → cfg0.idle 9 (grid0.coords t) = true := by decide +kernel
/-- and the pipeline does not write its block back there. -/
theorem noFlush0_9_A : ∀ t : Fin cfg0.N, cond0_0 (grid0.coords t) → ¬cond0_1 (grid0.coords t) → (cfg0.win 9).flush t = false := by decide +kernel
/-- At the second-layer points the output window is live. -/
theorem liveAt0_9_B : ∀ t : Fin cfg0.N, ¬cond0_0 (grid0.coords t) → cond0_1 (grid0.coords t) → cfg0.idle 9 (grid0.coords t) = false := by decide +kernel

/-! ## The staging memrefs at a point -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x64 .f32 := win0_9.stage (cfg0.slots t 9)
abbrev hs0_9 (t : Fin cfg0.N) : (ms0_9 t).IsWhole := hstage0_9 ((cfg0.slots t 9).cast nbuf0_9)
/-- The hidden-layer scratch buffer: a whole scoped buffer of the kernel's own, carried from point to point. -/
abbrev scM0_0 : Memref sig .tc .vmem S10000x256 .bf16 := Memref.whole cc0_scratch0

/-- The class invariant with the scratch buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KIRunA.lean ====
/-
  The body at a first-layer point, run symbolically: from the nine input blocks in their staging buffers, the
  output's staging buffer at anything (it is handed back untouched) and the hidden-layer scratch buffer at given
  contents, the body ends with the inputs as they were and the scratch buffer overwritten by two pieces, the two
  200-row halves of the point's rows of the first layer.
-/
import proofs.«116359_g171798692301_cont_8to1_52_15_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first-layer branch stores into the scratch buffer (last first), with the body's triple. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x256 .bf16) (harg11 : arg11.IsWhole) (hc0 : cond0_0 i) (hc1 : ¬cond0_1 i)
    (x0 : Vec F S200x10000 .f32) (x1 : Vec F S200x10000 .f32) (x2 : Vec F S10000x256 .f32) (x3 : Vec F S256x256 .f32) (x4 : Vec F S1x256 .f32) (x5 : Vec F S256x256 .f32) (x6 : Vec F S1x256 .f32) (x7 : Vec F S256x64 .f32) (x8 : Vec F S1x64 .f32) (xs0 : Vec F S10000x256 .bf16) :
    { LS0 : List (View.Piece (Elt F) S10000x256 .bf16) //
      ∀ (xi9 : Vec F S400x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (arg11.view.loc (c : Thread nD τ) ↦[arg11.view.set]{fullShare} arg11.view.writes (Elt F) (harg11.unread xs0) LS0)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11) K } := by
  refine ⟨?_, fun xi9 E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexact HS0

end Cert.KernelIdeal.Gen

end
-- ==== Proof.KIRunB.lean ====
/-
  The body at a second-layer point, run symbolically: from the nine input blocks in their staging buffers, the
  hidden-layer scratch buffer at given contents (only read) and the output's staging buffer at anything, the body
  ends with the inputs and the scratch as they were and the output's buffer overwritten by two pieces, the two
  200-row halves of the point's 400 output rows.
-/
import proofs.«116359_g171798692301_cont_8to1_52_15_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the second-layer branch stores into the output's staging buffer (last first), with the body's triple. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x256 .bf16) (harg11 : arg11.IsWhole) (hc0 : ¬cond0_0 i) (hc1 : cond0_1 i)
    (x0 : Vec F S200x10000 .f32) (x1 : Vec F S200x10000 .f32) (x2 : Vec F S10000x256 .f32) (x3 : Vec F S256x256 .f32) (x4 : Vec F S1x256 .f32) (x5 : Vec F S256x256 .f32) (x6 : Vec F S1x256 .f32) (x7 : Vec F S256x64 .f32) (x8 : Vec F S1x64 .f32) (xs0 : Vec F S10000x256 .bf16) :
    { L9 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; isplitr; · ipureintro; exact harg11.read_unread _
    iexact HS0

end Cert.KernelIdeal.Gen

end
-- ==== Proof.KIData.lean ====
/-
  The proof data of the idealized kernel's one pipeline.

  The first layer's result, as ONE array of 10000 rows: row r is stored at grid point r / 400, in the first or the
  second 200-row half of that point's 400 rows, from the point's block of the adjacency matrix (`H1`).  The
  hidden-layer scratch buffer holds rows 0 .. 400·n − 1 of it before point n (nothing is said of the other rows),
  all of it from point 25 on.  The output window's staging buffer after a second-layer point holds the two pieces
  that point's branch stores, computed from the point's blocks and the whole first layer; at a first-layer point
  the window is idle and nothing is said.  Windows 0 and 1 read one array, the adjacency matrix: they hold the two
  halves of its share.
-/
import proofs.«116359_g171798692301_cont_8to1_52_15_alg».proof.Proof.KIRunA
import proofs.«116359_g171798692301_cont_8to1_52_15_alg».proof.Proof.KIRunB
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VO0_9 : View sig .tc .vmem S400x64 .f32 := (Memref.whole cc0_stg9_0 : Memref sig .tc .vmem S400x64 .f32).view

/-- Row r of the hidden layer is stored at grid point r / 400, one of the first 25 points. -/
theorem N_lt (y : S10000x256.Idx) : (y 0).val / 400 < cfg0.N := by
  have h := ValueIdx.idx2_lt0 y
  have : cfg0.N = 50 := N_0
  omega

/-- THE FIRST LAYER, whole: entry (r, j) is entry (r mod 200, j) of the block the point r / 400 computes for its
    first (r mod 400 < 200) or second half, from that point's blocks of the adjacency matrix and the whole
    feature, weight and bias arrays. -/
def H1 (c : Dev nD) : Vec F S10000x256 .bf16 := fun y =>
  if (y 0).val % 400 < 200 then
    k0_pay4 (iblk m c 2 ⟨(y 0).val / 400, N_lt y⟩) (iblk m c 0 ⟨(y 0).val / 400, N_lt y⟩) (iblk m c 3 ⟨(y 0).val / 400, N_lt y⟩) (iblk m c 4 ⟨(y 0).val / 400, N_lt y⟩)
      (ValueIdx.ix2 (⟨(y 0).val % 200, Nat.mod_lt _ (by decide)⟩ : Fin 200) (⟨(y 1).val, ValueIdx.idx2_lt1 y⟩ : Fin 256))
  else
    k0_pay1 (k0_pay5 (iblk m c 2 ⟨(y 0).val / 400, N_lt y⟩) (iblk m c 1 ⟨(y 0).val / 400, N_lt y⟩) (iblk m c 3 ⟨(y 0).val / 400, N_lt y⟩) (iblk m c 4 ⟨(y 0).val / 400, N_lt y⟩))
      (ValueIdx.ix2 (⟨(y 0).val % 200, Nat.mod_lt _ (by decide)⟩ : Fin 200) (⟨(y 1).val, ValueIdx.idx2_lt1 y⟩ : Fin 256))

/-- What the scratch buffer is known to hold before point n: the first 400·n rows of the first layer. -/
def Inv (c : Dev nD) (n : ℕ) (X : Vec F S10000x256 .bf16) : Prop :=
  ∀ y : S10000x256.Idx, (y 0).val < 400 * n → X y = H1 m c y

/-- From point 25 on that is the whole first layer. -/
theorem Inv_full (c : Dev nD) (n : ℕ) (hn : 25 ≤ n) (X : Vec F S10000x256 .bf16) (h : Inv m c n X) : X = H1 m c :=
  funext fun y => h y (by have := ValueIdx.idx2_lt0 y; omega)

/-- The two pieces the first-layer branch stores into the scratch buffer at point t (last first), found by the run. -/
def piecesA (c : Dev nD) (t : Fin cfg0.N) (h : t.val < 25) (X : Vec F S10000x256 .bf16) : List (View.Piece (Elt F) S10000x256 .bf16) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    ((hcond0_0 t).mpr h) (fun hc => absurd ((hcond0_1 t).mp hc) (by omega)) (iblk m c 0 t) (iblk m c 1 t) (iblk m c 2 t) (iblk m c 3 t) (iblk m c 4 t) (iblk m c 5 t) (iblk m c 6 t) (iblk m c 7 t) (iblk m c 8 t) X).1

/-- The two pieces the second-layer branch stores into the output's staging buffer at point t (last first), found by
    the run, the scratch buffer holding the whole first layer. -/
def piecesB (c : Dev nD) (t : Fin cfg0.N) (h : 25 ≤ t.val) : List (View.Piece (Elt F) S400x64 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun hc => absurd ((hcond0_0 t).mp hc) (by omega)) ((hcond0_1 t).mpr h) (iblk m c 0 t) (iblk m c 1 t) (iblk m c 2 t) (iblk m c 3 t) (iblk m c 4 t) (iblk m c 5 t) (iblk m c 6 t) (iblk m c 7 t) (iblk m c 8 t) (H1 m c)).1

/-- What the output window's staging buffer holds after the body at point t: at a second-layer point the two pieces
    the branch stores, read back (they tile the block); at a first-layer point nothing anyone reads. -/
def out9 (c : Dev nD) (t : Fin cfg0.N) : Vec F S400x64 .f32 :=
  if h : 25 ≤ t.val then VO0_9.read (Elt F) (VO0_9.writes (Elt F) VO0_9.junk (piecesB m c t h))
  else VO0_9.read (Elt F) VO0_9.junk

/-- The region invariant before position n: before the first point the class's (the scratch at anything); afterwards
    the scratch at contents that agree with the first layer on its first 400·n rows, and the generator register at
    some state. -/
def PhiS (c : Dev nD) : (n : ℕ) → n ≤ cfg0.N → sProp 𝕄
  | 0, _ => Pipeline.ΦA spec0 c
  | n + 1, _ => iprop(iprop(∃ X, ⌜Inv m c (n + 1) X⌝ ∗ owns (c : Thread nD τ) scM0_0 fullShare X) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(∃ X, ⌜Inv m c (n + 1) X⌝ ∗ owns (c : Thread nD τ) scM0_0 fullShare X) ∗ (∃ r, prngReg c r)) := rfl

theorem PhiS_pos (c : Dev nD) (n : ℕ) (h : n ≤ cfg0.N) (hz : n ≠ 0) :
    PhiS m c n h = iprop(iprop(∃ X, ⌜Inv m c n X⌝ ∗ owns (c : Thread nD τ) scM0_0 fullShare X) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

end Cert.KernelIdeal.Gen

end
-- ==== Proof.KIStepA.lean ====
/-
  One first-layer point keeps the scratch buffer's invariant.

  Before point t the scratch buffer agrees with the first layer on rows 0 .. 400·t − 1.  The point stores two pieces of
  200 whole rows each, at rows 400·t and 400·t + 200: the point's two half-blocks of the first layer.  A row of the
  new contents below 400·t is untouched, a row in [400·t, 400·t + 200) reads the first piece at the row minus 400·t,
  a row in [400·t + 200, 400·t + 400) the second at the row minus 400·t − 200; in each case that is the first layer's
  entry, whose defining point is row / 400 = t and whose local row is row mod 200.
-/
import proofs.«116359_g171798692301_cont_8to1_52_15_alg».proof.Proof.KIData
import Idealize.ShloMosaic.Lib.Pipeline.Value
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two spellings of the zero offsets. -/
theorem zero_off2 : (![0, 0] : Fin 2 → Nat) = fun _ => 0 := funext fun a => by fin_cases a <;> rfl

/-- The first piece of point t starts at row 400·t, -/
theorem off_lo : ∀ t : Fin cfg0.N, k0_off1 (grid0.coords t) 0#32 = ![400 * t.val, 0] :=
  (by decide +kernel : ∀ t : Fin grid0.N, k0_off1 (grid0.coords t) 0#32 = ![400 * t.val, 0])

/-- the second at row 400·t + 200. -/
theorem off_hi : ∀ t : Fin cfg0.N, k0_off1 (grid0.coords t) 1#32 = ![400 * t.val + 200, 0] :=
  (by decide +kernel : ∀ t : Fin grid0.N, k0_off1 (grid0.coords t) 1#32 = ![400 * t.val + 200, 0])

/-- After a first-layer point the scratch buffer agrees with the first layer on 400 more rows. -/
theorem inv_step_A (c : Dev nD) (t : Fin cfg0.N) (h : t.val < 25) (X : Vec F S10000x256 .bf16) (hX : Inv m c t.val X) :
    Inv m c (t.val + 1)
      (scM0_0.view.read (Elt F)
        (scM0_0.view.writes (Elt F) ((Memref.isWhole_whole cc0_scratch0).unread X) (piecesA m c t h X))) := by
  unfold Inv at hX ⊢
  intro y hy
  have hy1 : (y 1).val < 256 := ValueIdx.idx2_lt1 y
  unfold piecesA kernelRun0_A
  dsimp only
  sl_unfold_run_names
  simp only [View.readAt_eq_ld, Memref.IsWhole.read_unread, View.ld_unit_zero (S := S10000x256) zero_off2,
    View.ld_unit_zero (S := S200x10000) zero_off2, View.ld_unit_zero (S := S256x256) zero_off2,
    View.ld_unit_zero (S := S1x256) zero_off2]
  by_cases hA : (y 0).val < 400 * t.val
  · refine (View.read_writes_cons_rows_of_not_mem _ _ _ _ _ y (off_hi t) rfl (Or.inl (by omega))).trans ?_
    refine (View.read_writes_cons_rows_of_not_mem _ _ _ _ _ y (off_lo t) rfl (Or.inl hA)).trans ?_
    rw [View.writes_nil]
    exact (congrFun ((Memref.isWhole_whole cc0_scratch0).read_unread X) y).trans (hX y hA)
  · have ht : (⟨(y 0).val / 400, N_lt y⟩ : Fin cfg0.N) = t := Fin.ext (by show (y 0).val / 400 = t.val; omega)
    by_cases hB : (y 0).val < 400 * t.val + 200
    · refine (View.read_writes_cons_rows_of_not_mem _ _ _ _ _ y (off_hi t) rfl (Or.inl hB)).trans ?_
      refine (View.read_writes_cons_rows_of_mem _ _ _ _ _ y
        (ValueIdx.ix2 (⟨(y 0).val % 200, Nat.mod_lt _ (by decide)⟩ : Fin 200) (⟨(y 1).val, hy1⟩ : Fin 256)) (off_lo t)
        (by show (y 0).val = 400 * t.val + (y 0).val % 200; omega) rfl).trans ?_
      unfold H1
      rw [if_pos (by omega)]
      subst ht
      rfl
    · refine (View.read_writes_cons_rows_of_mem _ _ _ _ _ y
        (ValueIdx.ix2 (⟨(y 0).val % 200, Nat.mod_lt _ (by decide)⟩ : Fin 200) (⟨(y 1).val, hy1⟩ : Fin 256)) (off_hi t)
        (by show (y 0).val = 400 * t.val + 200 + (y 0).val % 200; omega) rfl).trans ?_
      unfold H1
      rw [if_neg (by omega)]
      subst ht
      rfl

end Cert.KernelIdeal.Gen

end
-- ==== Proof.KIBody.lean ====
/-
  The body obligation of the idealized kernel's pipeline, at a generic grid point.  At a first-layer point (t < 25)
  the body is handed the scratch buffer at contents that agree with the first layer on its first 400·t rows and
  hands it back agreeing on 400·(t+1) rows; the output window is idle and its buffer comes back untouched.  At a
  second-layer point the scratch buffer holds the whole first layer, is only read, and the output window's
  buffer comes back holding the point's two pieces.
-/
import proofs.«116359_g171798692301_cont_8to1_52_15_alg».proof.Proof.KIData
import proofs.«116359_g171798692301_cont_8to1_52_15_alg».proof.Proof.KIStepA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second-layer branch's two pieces tile the output block. -/
theorem coverB (c : Dev nD) (t : Fin cfg0.N) (h : 25 ≤ t.val) (y : S400x64.Idx) :
    ∃ pc ∈ piecesB m c t h, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun hc => absurd ((hcond0_0 t).mp hc) (by omega)) ((hcond0_1 t).mpr h) (iblk m c 0 t) (iblk m c 1 t) (iblk m c 2 t) (iblk m c 3 t) (iblk m c 4 t) (iblk m c 5 t) (iblk m c 6 t) (iblk m c 7 t) (iblk m c 8 t) (H1 m c)).1 S200x64.size (by sl_kernel_rfl) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h : t.val < 25
  · have hc0 : cond0_0 (grid0.coords t) := (hcond0_0 t).mpr h
    have hc1 : ¬cond0_1 (grid0.coords t) := fun hc => absurd ((hcond0_1 t).mp hc) (by omega)
    rw [Dat.leavesExact_idle (dats m 0 c) 9 t (idleAt0_9_A t hc0 hc1) (noFlush0_9_A t hc0 hc1)]
    have key : ∀ X : Vec F S10000x256 .bf16, Inv m c t.val X →
        iprop(owns (c : Thread nD τ) scM0_0 fullShare X ∗ (∃ r, prngReg c r) ∗ (dats m 0 c).owesAt () t.castSucc
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ owns (c : Thread nD τ) (ms0_3 t) fullShare (iblk m c 3 t)
          ∗ owns (c : Thread nD τ) (ms0_4 t) fullShare (iblk m c 4 t)
          ∗ owns (c : Thread nD τ) (ms0_5 t) fullShare (iblk m c 5 t)
          ∗ owns (c : Thread nD τ) (ms0_6 t) fullShare (iblk m c 6 t)
          ∗ owns (c : Thread nD τ) (ms0_7 t) fullShare (iblk m c 7 t)
          ∗ owns (c : Thread nD τ) (ms0_8 t) fullShare (iblk m c 8 t)
          ∗ (∃ d, owns (c : Thread nD τ) (ms0_9 t) fullShare ((dats m 0 c).before 9 t d)))
        ⊢ wp frame (wpE (defs₀ (F := F)) Variants.none c none) Set.univ
            (cc0__gcn_body (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _))
            (fun _ => iprop(iprop(iprop(∃ X, ⌜Inv m c (t.val + 1) X⌝ ∗ owns (c : Thread nD τ) scM0_0 fullShare X) ∗ (∃ r, prngReg c r)) ∗ (dats m 0 c).owesAt () t.castSucc
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ owns (c : Thread nD τ) (ms0_3 t) fullShare (iblk m c 3 t)
          ∗ owns (c : Thread nD τ) (ms0_4 t) fullShare (iblk m c 4 t)
          ∗ owns (c : Thread nD τ) (ms0_5 t) fullShare (iblk m c 5 t)
          ∗ owns (c : Thread nD τ) (ms0_6 t) fullShare (iblk m c 6 t)
          ∗ owns (c : Thread nD τ) (ms0_7 t) fullShare (iblk m c 7 t)
          ∗ owns (c : Thread nD τ) (ms0_8 t) fullShare (iblk m c 8 t)
          ∗ (∃ d, owns (c : Thread nD τ) (ms0_9 t) fullShare ((dats m 0 c).before 9 t d)))) := by
      intro X hX
      iintro ⟨HS0, Hg, Ho, H0, H1, H2, H3, H4, H5, H6, H7, H8, ⟨%d9, H9⟩⟩
      iapply ((kernelRun0_A c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, HS0⟩
      isplitl [HS0 Hg]
      · isplitl [HS0]
        · iexists _; isplitr
          · ipureintro; exact inv_step_A m c t h X hX
          · unfold owns; iexists _; isplitr; · ipureintro; rfl
            iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    by_cases hz : t.val = 0
    · rw [PhiS_castSucc m c t, PhiS_zero m c _ _ hz, PhiA0_eq]
      iintro ⟨⟨⟨%X, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (key X (fun y hy => absurd hy (by rw [hz]; omega)))
      isplitl [HS0]; · iexact HS0
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m c t, PhiS_pos m c _ _ hz]
      iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (key X hX)
      isplitl [HS0]; · iexact HS0
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have h' : 25 ≤ t.val := Nat.le_of_not_lt h
    have hc0 : ¬cond0_0 (grid0.coords t) := fun hc => absurd ((hcond0_0 t).mp hc) (by omega)
    have hc1 : cond0_1 (grid0.coords t) := (hcond0_1 t).mpr h'
    have hz : t.val ≠ 0 := by omega
    rw [show (dats m 0 c).leavesExact 9 t = owns (c : Thread nD τ) (ms0_9 t) fullShare ((dats m 0 c).after 9 t) from by
      unfold Dat.leavesExact; rw [liveAt0_9_B t hc0 hc1], after0_9]
    unfold out9; rw [dif_pos h']
    rw [PhiS_castSucc m c t, PhiS_pos m c _ _ hz]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl : X = H1 m c := Inv_full m c t.val h' X hX
    iapply ((kernelRun0_B c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) (H1 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, ⟨%e9, H9⟩, HS0⟩
    isplitl [HS0 Hg]
    · isplitl [HS0]
      · iexists _; isplitr
        · ipureintro; exact fun y _ => rfl
        · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB m c t h')

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨%X, -, HS0⟩, Hg⟩
  isplitl [HS0]
  · iexists _; iexact HS0
  iexact Hg

end Cert.KernelIdeal.Gen

end
-- ==== Proof.KILaunch.lean ====
/-
  The launch of the idealized kernel's program. Its pallas_call hands ONE array — the adjacency matrix — to two
  input windows, so the two windows' arrays are not distinct buffers: the full share of that buffer is dealt between
  them, the left half to window 0 and the right half to window 1, and every other array is held whole by its one
  window. From that split of the buffers behind the arrays, the region rule for shared arrays gives the run: every
  weakly fair execution terminates, every array ends at what the proof data compute for it, and every buffer the
  region bypasses ends as it was when the region was entered.
-/
import proofs.«116359_g171798692301_cont_8to1_52_15_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the arrays -/

/-- The ten windows read nine buffers: the adjacency matrix is behind windows 0 and 1. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_call0_v0) ↦{fullShare} W main_call0_v0)
          ∗ (((c : Thread nD τ).loc main_arg4) ↦{fullShare} W main_arg4) ∗ (((c : Thread nD τ).loc main_call0_v1) ↦{fullShare} W main_call0_v1)
          ∗ (((c : Thread nD τ).loc main_arg6) ↦{fullShare} W main_arg6) ∗ (((c : Thread nD τ).loc main_call0_v2) ↦{fullShare} W main_call0_v2)
          ∗ (((c : Thread nD τ).loc main_v0) ↦{fullShare} W main_v0)) := by
  unfold Pipeline.arrBufs
  exact bigSep_eq_bigSepL_of_eq [main_arg1, main_arg0, main_arg2, main_call0_v0, main_arg4, main_call0_v1, main_arg6, main_call0_v2, main_v0]
    (by decide) (by decide) _

/-- One window's array in the proof data's `arrays` at the region's entry: a whole buffer, at the window's share, at
    the entry contents. -/
theorem arr_entry (c : Dev nD) (dat : Dat τ (Elt F) Unit ℕ (UR sig nD τ) ℕ cfg0 c) (w : Fin cfg0.W) (q : PosShare TreeShare)
    (hs : dat.share w = q) (hA : dat.A w = V m c (Pipeline.arrRef spec0 w)) :
    ((cfg0.win w).arr.view.loc (c : Thread nD τ) ↦[(cfg0.win w).arr.view.set]{dat.share w} dat.arrAt w 0 : sProp 𝕄)
      = (((c : Thread nD τ).loc (Pipeline.arrRef spec0 w)) ↦{q} V m c (Pipeline.arrRef spec0 w)) := by
  rw [(arr_whole0 w).set_eq_univ, hs, show dat.arrAt w 0 = dat.A w from rfl, hA]

/-! ## The split -/

/-- The buffers behind the arrays, each whole at the full share at the entry contents, make the proof data's arrays at
    the region's entry: the adjacency matrix's full share is its left half, window 0's, and its right half,
    window 1's; every other buffer is its one window's, whole. -/
theorem arrays_shared (c : Dev nD) (dat : Dat τ (Elt F) Unit ℕ (UR sig nD τ) ℕ cfg0 c)
    (hq0 : dat.q 0 = fullShare.left) (hq1 : dat.q 1 = fullShare.right)
    (hq : ∀ w : Fin cfg0.W, w ≠ 0 → w ≠ 1 → dat.q w = fullShare)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_neg (by decide), hq 2 (by decide) (by decide)]
  have hs3 : dat.share 3 = fullShare := by unfold Dat.share; rw [if_neg (by decide), hq 3 (by decide) (by decide)]
  have hs4 : dat.share 4 = fullShare := by unfold Dat.share; rw [if_neg (by decide), hq 4 (by decide) (by decide)]
  have hs5 : dat.share 5 = fullShare := by unfold Dat.share; rw [if_neg (by decide), hq 5 (by decide) (by decide)]
  have hs6 : dat.share 6 = fullShare := by unfold Dat.share; rw [if_neg (by decide), hq 6 (by decide) (by decide)]
  have hs7 : dat.share 7 = fullShare := by unfold Dat.share; rw [if_neg (by decide), hq 7 (by decide) (by decide)]
  have hs8 : dat.share 8 = fullShare := by unfold Dat.share; rw [if_neg (by decide), hq 8 (by decide) (by decide)]
  have hs9 : dat.share 9 = fullShare := by unfold Dat.share; rw [if_pos (by decide)]
  rw [arrBufs0_eq]
  unfold Dat.arrays
  rw [bigSep_W0, arr_entry m c dat 0 _ hs0 (hA 0), arr_entry m c dat 1 _ hs1 (hA 1), arr_entry m c dat 2 _ hs2 (hA 2),
    arr_entry m c dat 3 _ hs3 (hA 3), arr_entry m c dat 4 _ hs4 (hA 4), arr_entry m c dat 5 _ hs5 (hA 5),
    arr_entry m c dat 6 _ hs6 (hA 6), arr_entry m c dat 7 _ hs7 (hA 7), arr_entry m c dat 8 _ hs8 (hA 8),
    arr_entry m c dat 9 _ hs9 (hA 9)]
  iintro ⟨H1, H0, H2, Hv0, H4, Hv1, H6, Hv2, Ho⟩
  ihave Hs := (pointsTo_share (PosShare.mem_left_op_right fullShare)).1 $$ H1
  icases Hs with ⟨Hl, Hr⟩
  isplitl [Hl]; · iexact Hl
  isplitl [Hr]; · iexact Hr
  isplitl [H0]; · iexact H0
  isplitl [H2]; · iexact H2
  isplitl [Hv0]; · iexact Hv0
  isplitl [H4]; · iexact H4
  isplitl [Hv1]; · iexact Hv1
  isplitl [H6]; · iexact H6
  isplitl [Hv2]; · iexact Hv2
  iexact Ho

/-! ## The run -/

set_option backward.isDefEq.respectTransparency.types false in
/-- The run of the program from the split: every weakly fair execution of @main on the TensorCore terminates, every
    array of the pipeline ends at what the proof data compute for it — windows 0 and 1, on one buffer, each its own
    `arrAt … N`, both that buffer's final contents — and every unscoped buffer that is no window's array ends at its
    contents at the region's entry. The proof data deal the adjacency matrix's share in halves between windows 0 and 1
    (`hq0`, `hq1`), hold every other input array whole (`hq`), owe nothing (`howed`), start from the entry contents
    (`hA`), and their invariant is reached from the class invariant before the first point and yields it back after
    the last (`hin`, `hout`). -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq : ∀ c (w : Fin cfg0.W), w ≠ 0 → w ≠ 1 → (dats 0 c).q w = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_shared m c (dats 0 c) (hq0 c) (hq1 c) (hq c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (V m c) s')
      isplitl [HU] <;> iassumption)
    (hQ := fun s h c => ⟨(h c).1, Pipeline.rest_of_restP Pipeline.Prefetch.none spec0 (fun k => k.elim0) c (V m c) s (fun k => k.elim0) (h c).2.1 (h c).2.2⟩)

end Cert.KernelIdeal.Gen

end
-- ==== Proof.KIFrameOf.lean ====
/-
  The frame claim's post from the frame run's: the eight argument arrays end as launched.  Five of them are arrays of
  input windows (the adjacency matrix of two), which the pipeline never writes; the three bias vectors bypass the
  region (the kernel reads their reshaped copies), and the reshapes before the region write none of the eight.
-/
import proofs.«116359_g171798692301_cont_8to1_52_15_alg».proof.Proof.KIData

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- THE FRAME from a frame run. -/
theorem frame_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩) h

end Cert.KernelIdeal.Gen

end
-- ==== Proof.KIFrame.lean ====
/-
  The frame run of the idealized kernel's program and its frame: at the compiled mesh, for any float values, from any
  memory with zero counters, every weakly fair execution of @main on the TensorCores terminates, nothing faulting, with
  every array of the pipeline at what the proof data say and every other unscoped buffer as the region found it; so the
  eight argument arrays end as launched.
-/
import proofs.«116359_g171798692301_cont_8to1_52_15_alg».proof.Proof.KIBody
import proofs.«116359_g171798692301_cont_8to1_52_15_alg».proof.Proof.KILaunch
import proofs.«116359_g171798692301_cont_8to1_52_15_alg».proof.Proof.KIFrameOf

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Windows 2 … 9 hold their arrays at the full share (windows 0 and 1 the two halves of the adjacency matrix's). -/
theorem q_full (c : Dev nD) (w : Fin cfg0.W) (h0 : w ≠ 0) (h1 : w ≠ 1) : (dats (F := F) m 0 c).q w = fullShare := by
  match w with
  | ⟨0, _⟩ => exact absurd rfl h0
  | ⟨1, _⟩ => exact absurd rfl h1
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

theorem run_main : θ_run defs (onTc (τ := τ) (main (F := F))) (s₀ m ρ) (Pipeline.FramePost cfgs (dats m) 0 (V m)) :=
  run_shared m ρ (dats m) (fun c => (body_obligation m c).loose) (fun _ => rfl) (fun _ => rfl) (q_full m)
    (fun _ _ => rfl) (A_eq m) (hin m) (hout m)

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (run_main m ρ)

end Cert.KernelIdeal.Gen

end
-- ==== Proof.Spec.lean ====
/-
  The two-layer graph convolution with a final linear layer and a row-wise log-softmax, as functions on the
  extended reals, index by index, over N = 10000 nodes, 256 features, 256 hidden units twice and 64 classes.

  One layer is  max(adj · h · W + b, 0).  The product of three matrices can be bracketed two ways:
  (adj · h) · W  (`layerAH`: the neighbourhood sum first) or  adj · (h · W)  (`layerHW`: the feature product first).
  Entry (r, j) of the first is  Σ_k (Σ_l adj(r,l) · h(l,k)) · W(k,j),  of the second  Σ_l adj(r,l) · (Σ_k h(l,k) · W(k,j)).
  On real entries the two are equal (finite sums commute and products distribute); at infinite entries they need not be.
  The logits of row r are  Σ_k h(r,k) · Wf(k,f) + bf(f),  and the log-softmax of a row z is
  (z(f) − max z) − log Σ_g exp(z(g) − max z).
-/
import Mathlib
import Idealize.ShloMosaic.PureOps.Ideal
import Idealize.ShloMosaic.PureOps.Ideal.Laws

noncomputable section

namespace Cert.Gcn

open Idealize.ShloMosaic

/-- The rectifier's threshold, the f32 word of +0.0 read as an extended real (it is 0: `Ideal.ofBits_zero_f32`). -/
abbrev zero32 : EReal := Ideal.ofBits .f32 0x00000000#32

/-- One row of a layer with the neighbourhood sum taken first, from that node's row `a` of the adjacency matrix:
    entry j of max((a · h) · W + b, 0). -/
def layerRow (a : Fin 10000 → EReal) (h : Fin 10000 → Fin 256 → EReal) (W : Fin 256 → Fin 256 → EReal)
    (b : Fin 256 → EReal) (j : Fin 256) : EReal :=
  max ((∑ k : Fin 256, (∑ l : Fin 10000, a l * h l k) * W k j) + b j) zero32

/-- One layer with the neighbourhood sum taken first: entry (r, j) of max((adj · h) · W + b, 0). -/
def layerAH (adj : Fin 10000 → Fin 10000 → EReal) (h : Fin 10000 → Fin 256 → EReal) (W : Fin 256 → Fin 256 → EReal)
    (b : Fin 256 → EReal) (r : Fin 10000) (j : Fin 256) : EReal :=
  layerRow (adj r) h W b j

/-- One layer with the feature product taken first: entry (r, j) of max(adj · (h · W) + b, 0). -/
def layerHW (adj : Fin 10000 → Fin 10000 → EReal) (h : Fin 10000 → Fin 256 → EReal) (W : Fin 256 → Fin 256 → EReal)
    (b : Fin 256 → EReal) (r : Fin 10000) (j : Fin 256) : EReal :=
  max ((∑ l : Fin 10000, adj r l * (∑ k : Fin 256, h l k * W k j)) + b j) zero32

/-- Entry (r, f) of h · Wf + bf. -/
def logits (h : Fin 10000 → Fin 256 → EReal) (Wf : Fin 256 → Fin 64 → EReal) (bf : Fin 64 → EReal)
    (r : Fin 10000) (f : Fin 64) : EReal :=
  (∑ k : Fin 256, h r k * Wf k f) + bf f

/-- The log-softmax of one row of 64 logits at class f, shifted by the row's maximum. -/
def logSoftmax (z : Fin 64 → EReal) (f : Fin 64) : EReal :=
  (z f - ⨆ g : Fin 64, z g) - Ideal.log (∑ g : Fin 64, Ideal.exp (z g - ⨆ g' : Fin 64, z g'))

/-- One node's output row from its row `a` of the adjacency matrix and the first layer's whole result `h1`:
    the second layer's row, the logits of that row, their log-softmax at class f. -/
def outRow (a : Fin 10000 → EReal) (h1 : Fin 10000 → Fin 256 → EReal) (W2 : Fin 256 → Fin 256 → EReal) (b2 : Fin 256 → EReal)
    (Wf : Fin 256 → Fin 64 → EReal) (bf : Fin 64 → EReal) (f : Fin 64) : EReal :=
  logSoftmax (fun f' => (∑ k : Fin 256, layerRow a h1 W2 b2 k * Wf k f') + bf f') f

/-- The whole network with every layer's neighbourhood sum taken first. -/
def netAH (adj : Fin 10000 → Fin 10000 → EReal) (x : Fin 10000 → Fin 256 → EReal) (W1 : Fin 256 → Fin 256 → EReal) (b1 : Fin 256 → EReal)
    (W2 : Fin 256 → Fin 256 → EReal) (b2 : Fin 256 → EReal) (Wf : Fin 256 → Fin 64 → EReal) (bf : Fin 64 → EReal)
    (r : Fin 10000) (f : Fin 64) : EReal :=
  logSoftmax (logits (layerAH adj (layerAH adj x W1 b1) W2 b2) Wf bf r) f

/-- The network's row r is that node's output row over the first layer's result. -/
theorem netAH_eq_outRow (adj : Fin 10000 → Fin 10000 → EReal) (x : Fin 10000 → Fin 256 → EReal) (W1 : Fin 256 → Fin 256 → EReal) (b1 : Fin 256 → EReal)
    (W2 : Fin 256 → Fin 256 → EReal) (b2 : Fin 256 → EReal) (Wf : Fin 256 → Fin 64 → EReal) (bf : Fin 64 → EReal)
    (r : Fin 10000) (f : Fin 64) :
    netAH adj x W1 b1 W2 b2 Wf bf r f = outRow (adj r) (layerAH adj x W1 b1) W2 b2 Wf bf f := rfl

/-- The whole network with every layer's feature product taken first. -/
def netHW (adj : Fin 10000 → Fin 10000 → EReal) (x : Fin 10000 → Fin 256 → EReal) (W1 : Fin 256 → Fin 256 → EReal) (b1 : Fin 256 → EReal)
    (W2 : Fin 256 → Fin 256 → EReal) (b2 : Fin 256 → EReal) (Wf : Fin 256 → Fin 64 → EReal) (bf : Fin 64 → EReal)
    (r : Fin 10000) (f : Fin 64) : EReal :=
  logSoftmax (logits (layerHW adj (layerHW adj x W1 b1) W2 b2) Wf bf r) f

end Cert.Gcn

end
-- ==== Proof.KIArgs.lean ====
/-
  The argument arrays of the idealized kernel's program as the specification reads them: matrices as functions of a
  row and a column, vectors of an index, all on the extended reals; and the result array the specification assigns
  to them, with every layer's neighbourhood sum taken first (the kernel's bracketing).
-/
import proofs.«116359_g171798692301_cont_8to1_52_15_alg».proof.KernelIdeal
import proofs.«116359_g171798692301_cont_8to1_52_15_alg».proof.Proof.Spec
import Idealize.ShloMosaic.PureOps.Ideal
import Idealize.ShloMosaic.Lib.ValueIdx

noncomputable section

namespace Cert.KernelIdeal.Gen

open Idealize.ShloMosaic Idealize.ShloMosaic.TcCoe Idealize.SL.Sem ValueIdx

variable (m : (ℓ : Loc nD τ sig) → Buf (Elt Ideal) ℓ)

/-- The adjacency matrix. -/
def aADJ (c : Dev nD) : Fin 10000 → Fin 10000 → EReal := fun r l => m ((c : Thread nD τ).loc main_arg1) (ix2 r l)
/-- The node features. -/
def aX (c : Dev nD) : Fin 10000 → Fin 256 → EReal := fun l k => m ((c : Thread nD τ).loc main_arg0) (ix2 l k)
/-- The first layer's weights and bias. -/
def aW1 (c : Dev nD) : Fin 256 → Fin 256 → EReal := fun k j => m ((c : Thread nD τ).loc main_arg2) (ix2 k j)
def aB1 (c : Dev nD) : Fin 256 → EReal := fun j => m ((c : Thread nD τ).loc main_arg3) (ix1 j)
/-- The second layer's weights and bias. -/
def aW2 (c : Dev nD) : Fin 256 → Fin 256 → EReal := fun k j => m ((c : Thread nD τ).loc main_arg4) (ix2 k j)
def aB2 (c : Dev nD) : Fin 256 → EReal := fun j => m ((c : Thread nD τ).loc main_arg5) (ix1 j)
/-- The final linear layer's weights and bias. -/
def aWF (c : Dev nD) : Fin 256 → Fin 64 → EReal := fun k f => m ((c : Thread nD τ).loc main_arg6) (ix2 k f)
def aBF (c : Dev nD) : Fin 64 → EReal := fun f => m ((c : Thread nD τ).loc main_arg7) (ix1 f)

/-- The result array: entry (r, f) is the network's output for node r and class f. -/
def G (c : Dev nD) : Buf (Elt Ideal) ((c : Thread nD τ).loc main_v0) := fun i =>
  Cert.Gcn.netAH (aADJ m c) (aX m c) (aW1 m c) (aB1 m c) (aW2 m c) (aB2 m c) (aWF m c) (aBF m c)
    ⟨(i 0).val, idx2_lt0 i⟩ ⟨(i 1).val, idx2_lt1 i⟩

end Cert.KernelIdeal.Gen

end
-- ==== Proof.KIBlocks.lean ====
/-
  Each window's block at a grid point, read at an index, is an argument array read at an index.  The windows' index
  maps are decided over the fifty grid points: windows 0 and 1 take the two 200-row halves of rows 400·(t mod 25) …
  400·(t mod 25) + 399 of the adjacency matrix, every other input window is its whole array at every point.  The
  region is entered after three reshapes, which copy the bias vectors into one-row matrices and write nothing else:
  the five matrices are as launched, and row 0 of each reshaped bias is the bias vector.
-/
import proofs.«116359_g171798692301_cont_8to1_52_15_alg».proof.Proof.KIFrameOf
import proofs.«116359_g171798692301_cont_8to1_52_15_alg».proof.Proof.KIArgs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL.Sem ValueIdx
open Idealize.ShloMosaic.Pipeline (Dat Cfg Window BodyObligation cellOf)

variable (m : (ℓ : Loc nD τ sig) → Buf (Elt Ideal) ℓ)

/-! ## The index maps, decided over the grid -/

/-- Windows 0 and 1 take blocks 2·(t mod 25) and 2·(t mod 25) + 1 of the adjacency matrix's 50 row blocks. -/
theorem idx_adj : ∀ t : Fin cfg0.N, win0_0.index t (0 : Fin 2) = 2 * (t.val % 25) ∧ win0_0.index t (1 : Fin 2) = 0
    ∧ win0_1.index t (0 : Fin 2) = 2 * (t.val % 25) + 1 ∧ win0_1.index t (1 : Fin 2) = 0 :=
  (by decide +kernel : ∀ t : Fin grid0.N, _)

/-- Every other input window is block (0, 0), its whole array, at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The contents at the region's entry -/

/-- The first reshape's result is the first bias vector as a one-row matrix; the later two reshapes do not write it. -/
theorem V_call0_v0 (c : Dev nD) :
    (V m c main_call0_v0 : S1x256.Idx → EReal) = shapeCast S1x256 (m ((c : Thread nD τ).loc main_arg3)) shapeCasts_S256_S1x256 := by
  dsimp only [V, V0, hostOps0]; after_results; rfl

/-- The second reshape's result is the second bias vector as a one-row matrix. -/
theorem V_call0_v1 (c : Dev nD) :
    (V m c main_call0_v1 : S1x256.Idx → EReal) = shapeCast S1x256 (m ((c : Thread nD τ).loc main_arg5)) shapeCasts_S256_S1x256 := by
  dsimp only [V, V0, hostOps0]; after_results; rfl

/-- The third reshape's result is the last bias vector as a one-row matrix. -/
theorem V_call0_v2 (c : Dev nD) :
    (V m c main_call0_v2 : S1x64.Idx → EReal) = shapeCast S1x64 (m ((c : Thread nD τ).loc main_arg7)) shapeCasts_S64_S1x64 := by
  dsimp only [V, V0, hostOps0]; after_results; rfl

/-- Row 0 of the reshaped first bias, column by column. -/
theorem V_call0_v0_apply (c : Dev nD) (j : Fin 256) : (V m c main_call0_v0 : S1x256.Idx → EReal) (ix2 (0 : Fin 1) j) = aB1 m c j :=
  (congrFun (V_call0_v0 m c) _).trans (shapeCast_a_1a_apply _ _ 0 j)
theorem V_call0_v1_apply (c : Dev nD) (j : Fin 256) : (V m c main_call0_v1 : S1x256.Idx → EReal) (ix2 (0 : Fin 1) j) = aB2 m c j :=
  (congrFun (V_call0_v1 m c) _).trans (shapeCast_a_1a_apply _ _ 0 j)
theorem V_call0_v2_apply (c : Dev nD) (f : Fin 64) : (V m c main_call0_v2 : S1x64.Idx → EReal) (ix2 (0 : Fin 1) f) = aBF m c f :=
  (congrFun (V_call0_v2 m c) _).trans (shapeCast_a_1a_apply _ _ 0 f)

/-! ## The blocks, read at an index -/

/-- Window 0's block at point t is rows 400·(t mod 25) … + 199 of the adjacency matrix. -/
theorem iblk0_apply (c : Dev nD) (t : Fin cfg0.N) (p : Fin 200) (l : Fin 10000) :
    iblk (F := Ideal) m c 0 t (ix2 p l) = aADJ m c ⟨400 * (t.val % 25) + p.val, by have := p.isLt; omega⟩ l := by
  obtain ⟨e0, e1, e2, e3⟩ := idx_adj t
  show V m c main_arg1 (((cfg0.win 0).blk t).view.emb (ix2 p l)) = m ((c : Thread nD τ).loc main_arg1) (ix2 _ l)
  refine (congrFun (V_main_arg1 m c) _).trans (congrArg (m ((c : Thread nD τ).loc main_arg1)) ?_)
  funext a; apply Fin.ext
  match a with
  | ⟨0, _⟩ => show win0_0.index t (0 : Fin 2) * 200 + 1 * p.val = 400 * (t.val % 25) + p.val; omega
  | ⟨1, _⟩ => show win0_0.index t (1 : Fin 2) * 10000 + 1 * l.val = l.val; omega

/-- Window 1's block at point t is the next 200 rows, 400·(t mod 25) + 200 … + 399. -/
theorem iblk1_apply (c : Dev nD) (t : Fin cfg0.N) (p : Fin 200) (l : Fin 10000) :
    iblk (F := Ideal) m c 1 t (ix2 p l) = aADJ m c ⟨400 * (t.val % 25) + 200 + p.val, by have := p.isLt; omega⟩ l := by
  obtain ⟨e0, e1, e2, e3⟩ := idx_adj t
  show V m c main_arg1 (((cfg0.win 1).blk t).view.emb (ix2 p l)) = m ((c : Thread nD τ).loc main_arg1) (ix2 _ l)
  refine (congrFun (V_main_arg1 m c) _).trans (congrArg (m ((c : Thread nD τ).loc main_arg1)) ?_)
  funext a; apply Fin.ext
  match a with
  | ⟨0, _⟩ => show win0_1.index t (0 : Fin 2) * 200 + 1 * p.val = 400 * (t.val % 25) + 200 + p.val; omega
  | ⟨1, _⟩ => show win0_1.index t (1 : Fin 2) * 10000 + 1 * l.val = l.val; omega

/-- Window 2's block is the whole feature matrix. -/
theorem iblk2_apply (c : Dev nD) (t : Fin cfg0.N) (l : Fin 10000) (k : Fin 256) :
    iblk (F := Ideal) m c 2 t (ix2 l k) = aX m c l k := by
  obtain ⟨a2, b2, a3, b3, a4, b4, a5, b5, a6, b6, a7, b7, a8, b8⟩ := idx_whole t
  show V m c main_arg0 (((cfg0.win 2).blk t).view.emb (ix2 l k)) = m ((c : Thread nD τ).loc main_arg0) (ix2 l k)
  refine (congrFun (V_main_arg0 m c) _).trans (congrArg (m ((c : Thread nD τ).loc main_arg0)) ?_)
  funext a; apply Fin.ext
  match a with
  | ⟨0, _⟩ => show win0_2.index t (0 : Fin 2) * 10000 + 1 * l.val = l.val; omega
  | ⟨1, _⟩ => show win0_2.index t (1 : Fin 2) * 256 + 1 * k.val = k.val; omega

/-- Window 3's block is the whole first weight matrix. -/
theorem iblk3_apply (c : Dev nD) (t : Fin cfg0.N) (k : Fin 256) (j : Fin 256) :
    iblk (F := Ideal) m c 3 t (ix2 k j) = aW1 m c k j := by
  obtain ⟨a2, b2, a3, b3, a4, b4, a5, b5, a6, b6, a7, b7, a8, b8⟩ := idx_whole t
  show V m c main_arg2 (((cfg0.win 3).blk t).view.emb (ix2 k j)) = m ((c : Thread nD τ).loc main_arg2) (ix2 k j)
  refine (congrFun (V_main_arg2 m c) _).trans (congrArg (m ((c : Thread nD τ).loc main_arg2)) ?_)
  funext a; apply Fin.ext
  match a with
  | ⟨0, _⟩ => show win0_3.index t (0 : Fin 2) * 256 + 1 * k.val = k.val; omega
  | ⟨1, _⟩ => show win0_3.index t (1 : Fin 2) * 256 + 1 * j.val = j.val; omega

/-- Window 4's block is the first bias as a one-row matrix. -/
theorem iblk4_apply (c : Dev nD) (t : Fin cfg0.N) (j : Fin 256) :
    iblk (F := Ideal) m c 4 t (ix2 (0 : Fin 1) j) = aB1 m c j := by
  obtain ⟨a2, b2, a3, b3, a4, b4, a5, b5, a6, b6, a7, b7, a8, b8⟩ := idx_whole t
  show V m c main_call0_v0 (((cfg0.win 4).blk t).view.emb (ix2 (0 : Fin 1) j)) = _
  refine (congrArg (V m c main_call0_v0) ?_).trans (V_call0_v0_apply m c j)
  funext a; apply Fin.ext
  match a with
  | ⟨0, _⟩ => show win0_4.index t (0 : Fin 2) * 1 + 1 * ((0 : Fin 1) : ℕ) = ((0 : Fin 1) : ℕ); omega
  | ⟨1, _⟩ => show win0_4.index t (1 : Fin 2) * 256 + 1 * j.val = j.val; omega

/-- Window 5's block is the whole second weight matrix. -/
theorem iblk5_apply (c : Dev nD) (t : Fin cfg0.N) (k : Fin 256) (j : Fin 256) :
    iblk (F := Ideal) m c 5 t (ix2 k j) = aW2 m c k j := by
  obtain ⟨a2, b2, a3, b3, a4, b4, a5, b5, a6, b6, a7, b7, a8, b8⟩ := idx_whole t
  show V m c main_arg4 (((cfg0.win 5).blk t).view.emb (ix2 k j)) = m ((c : Thread nD τ).loc main_arg4) (ix2 k j)
  refine (congrFun (V_main_arg4 m c) _).trans (congrArg (m ((c : Thread nD τ).loc main_arg4)) ?_)
  funext a; apply Fin.ext
  match a with
  | ⟨0, _⟩ => show win0_5.index t (0 : Fin 2) * 256 + 1 * k.val = k.val; omega
  | ⟨1, _⟩ => show win0_5.index t (1 : Fin 2) * 256 + 1 * j.val = j.val; omega

/-- Window 6's block is the second bias as a one-row matrix. -/
theorem iblk6_apply (c : Dev nD) (t : Fin cfg0.N) (j : Fin 256) :
    iblk (F := Ideal) m c 6 t (ix2 (0 : Fin 1) j) = aB2 m c j := by
  obtain ⟨a2, b2, a3, b3, a4, b4, a5, b5, a6, b6, a7, b7, a8, b8⟩ := idx_whole t
  show V m c main_call0_v1 (((cfg0.win 6).blk t).view.emb (ix2 (0 : Fin 1) j)) = _
  refine (congrArg (V m c main_call0_v1) ?_).trans (V_call0_v1_apply m c j)
  funext a; apply Fin.ext
  match a with
  | ⟨0, _⟩ => show win0_6.index t (0 : Fin 2) * 1 + 1 * ((0 : Fin 1) : ℕ) = ((0 : Fin 1) : ℕ); omega
  | ⟨1, _⟩ => show win0_6.index t (1 : Fin 2) * 256 + 1 * j.val = j.val; omega

/-- Window 7's block is the whole final weight matrix. -/
theorem iblk7_apply (c : Dev nD) (t : Fin cfg0.N) (k : Fin 256) (f : Fin 64) :
    iblk (F := Ideal) m c 7 t (ix2 k f) = aWF m c k f := by
  obtain ⟨a2, b2, a3, b3, a4, b4, a5, b5, a6, b6, a7, b7, a8, b8⟩ := idx_whole t
  show V m c main_arg6 (((cfg0.win 7).blk t).view.emb (ix2 k f)) = m ((c : Thread nD τ).loc main_arg6) (ix2 k f)
  refine (congrFun (V_main_arg6 m c) _).trans (congrArg (m ((c : Thread nD τ).loc main_arg6)) ?_)
  funext a; apply Fin.ext
  match a with
  | ⟨0, _⟩ => show win0_7.index t (0 : Fin 2) * 256 + 1 * k.val = k.val; omega
  | ⟨1, _⟩ => show win0_7.index t (1 : Fin 2) * 64 + 1 * f.val = f.val; omega

/-- Window 8's block is the final bias as a one-row matrix. -/
theorem iblk8_apply (c : Dev nD) (t : Fin cfg0.N) (f : Fin 64) :
    iblk (F := Ideal) m c 8 t (ix2 (0 : Fin 1) f) = aBF m c f := by
  obtain ⟨a2, b2, a3, b3, a4, b4, a5, b5, a6, b6, a7, b7, a8, b8⟩ := idx_whole t
  show V m c main_call0_v2 (((cfg0.win 8).blk t).view.emb (ix2 (0 : Fin 1) f)) = _
  refine (congrArg (V m c main_call0_v2) ?_).trans (V_call0_v2_apply m c f)
  funext a; apply Fin.ext
  match a with
  | ⟨0, _⟩ => show win0_8.index t (0 : Fin 2) * 1 + 1 * ((0 : Fin 1) : ℕ) = ((0 : Fin 1) : ℕ); omega
  | ⟨1, _⟩ => show win0_8.index t (1 : Fin 2) * 64 + 1 * f.val = f.val; omega

end Cert.KernelIdeal.Gen

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«116359_g171798692301_cont_8to1_52_15_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
import proofs.«116359_g171798692301_cont_8to1_52_15_alg».proof.Proof.Gen.KernelIdeal.Skeleton
import proofs.«116359_g171798692301_cont_8to1_52_15_alg».proof.Proof.Spec
import proofs.«116359_g171798692301_cont_8to1_52_15_alg».proof.Proof.LibInnerProducts
import proofs.«116359_g171798692301_cont_8to1_52_15_alg».proof.Proof.LibExtremeReduce
import proofs.«116359_g171798692301_cont_8to1_52_15_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
# The block arithmetic of the two-layer graph convolution, read index by index on the extended reals

Each 200-row block of a layer is max((a · h) · W + b, 0) with a the block's 200 rows of the adjacency matrix: at (p, j)
that is entry j of the layer's row built from row p of a. An output block multiplies the second layer's block by the
256×64 weights, adds the bias row, and takes the row-wise log-softmax, the row maximum being the supremum over the 64
classes and the normaliser the logarithm of the sum of the shifted exponentials. On extended reals a change of float
format is the identity and the zero word, as accumulator of a product, contributes nothing.
-/

noncomputable section

namespace Cert.KernelIdeal.Pay

open Idealize.ShloMosaic Idealize.ShloMosaic.ValueIdx
open Cert.KernelIdeal Cert.KernelIdeal.Gen
open scoped BigOperators

/-! ## Pointwise exponential and logarithm at an index -/

/-- The exponential of a block at an index is the exponential of the entry. -/
theorem exp_apply {s : Shape} (x : FVec Ideal s .f32) (i : s.Idx) : exp x i = Ideal.exp (x i) := rfl

/-- The logarithm of a block at an index is the logarithm of the entry. -/
theorem log_apply {s : Shape} (x : FVec Ideal s .f32) (i : s.Idx) : log x i = Ideal.log (x i) := rfl

/-! ## One layer's 200×256 block -/

/-- A 200×256 block of one layer: the rectified sum of the triple product (a · h) · W and the bias row. At (p, j) it is
    entry j of the layer's row built from row p of a. -/
theorem hidden_apply (a : FVec Ideal S200x10000 .bf16) (h : FVec Ideal S10000x256 .bf16) (W : FVec Ideal S256x256 .f32)
    (b : FVec Ideal S1x256 .f32) (hc : S1x256.ShapeCasts S1x256) (hb : S1x256.Broadcasts S200x256) (p : Fin 200) (j : Fin 256) :
    maximumf
      (addf
        (matmul dot_S200x256_S256x256_S200x256_1_0_0_1_n_n none
          (matmul dot_S200x10000_S10000x256_S200x256_1_0_0_1_n_n none a h (constant (F := Ideal) S200x256 .f32 0x00000000#32))
          W (constant (F := Ideal) S200x256 .f32 0x00000000#32))
        (broadcastTo S200x256 (shapeCast S1x256 b hc) hb))
      (broadcast S200x256 (Scalar.ofBits (F := Ideal) .f32 0x00000000#32)) (ix2 p j)
    = Cert.Gcn.layerRow (fun l => a (ix2 p l)) (fun l k => h (ix2 l k)) (fun k j => W (ix2 k j)) (fun j => b (ix2 0 j)) j := by
  rw [maximumf_apply, addf_apply, broadcast_apply, shapeCast_self, broadcastTo_1b_ab_apply]
  rw [InnerProducts.matmul_zero_apply dot_S200x256_S256x256_S200x256_1_0_0_1_n_n rfl]
  unfold Cert.Gcn.layerRow
  refine congrArg₂ max (congrArg₂ (· + ·) (Finset.sum_congr rfl fun k _ => ?_) rfl) rfl
  rw [InnerProducts.matmul_zero_apply dot_S200x10000_S10000x256_S200x256_1_0_0_1_n_n rfl]

/-! ## The logits of a 200×256 block -/

/-- The product of a 200×256 block with the 256×64 weights plus the bias row, at (p, g). -/
theorem logits_apply (x : FVec Ideal S200x256 .f32) (Wf : FVec Ideal S256x64 .f32) (bf : FVec Ideal S1x64 .f32)
    (hc : S1x64.ShapeCasts S1x64) (hb : S1x64.Broadcasts S200x64) (p : Fin 200) (g : Fin 64) :
    addf (matmul dot_S200x256_S256x64_S200x64_1_0_0_1_n_n none x Wf (constant (F := Ideal) S200x64 .f32 0x00000000#32))
      (broadcastTo S200x64 (shapeCast S1x64 bf hc) hb) (ix2 p g)
    = (∑ k : Fin 256, x (ix2 p k) * Wf (ix2 k g)) + bf (ix2 0 g) := by
  rw [addf_apply, shapeCast_self, broadcastTo_1b_ab_apply,
    InnerProducts.matmul_zero_apply dot_S200x256_S256x64_S200x64_1_0_0_1_n_n rfl]

/-! ## The row-wise log-softmax of a 200×64 block -/

/-- The maximum along the 64 lanes, taken from the word of -∞, is at row p the supremum of that row. -/
theorem rowMax_apply (z : FVec Ideal S200x64 .f32) (hr : S200x64.Reduces [1] S200) (hφ : FKind.Formats .f32)
    (hacc : (0xFF800000#32 : BitVec 32) = FKind.maximumf.neutral .f32 hφ) (p : Fin 200) :
    multiReduction .maximumf [1] S200 z 0xFF800000#32 hr hφ hacc (ix1 p) = ⨆ g : Fin 64, z (ix2 p g) := by
  refine (ExtremeReduce.multiReduction_max_single z hr hφ hacc (ix1 p)).trans ?_
  show (⨆ k : Fin 64, z (hr.lift (ix1 p) k)) = ⨆ g : Fin 64, z (ix2 p g)
  refine iSup_congr fun g => congrArg z (funext fun ax => Fin.ext ?_)
  match ax with
  | ⟨0, _⟩ => rfl
  | ⟨1, _⟩ => rfl

/-- The sum along the 64 lanes, taken from the word of +0, is at row p the sum of that row. -/
theorem rowSum_apply (e : FVec Ideal S200x64 .f32) (hr : S200x64.Reduces [1] S200) (hφ : FKind.Formats .f32)
    (hacc : (0x00000000#32 : BitVec 32) = FKind.add.neutral .f32 hφ) (p : Fin 200) :
    multiReduction .add [1] S200 e 0x00000000#32 hr hφ hacc (ix1 p) = ∑ g : Fin 64, e (ix2 p g) := by
  refine (Ideal.multiReduction_add_single e _ hr hφ hacc (ix1 p)).trans ?_
  show (∑ k : Fin 64, e (hr.lift (ix1 p) k)) = ∑ g : Fin 64, e (ix2 p g)
  refine Finset.sum_congr rfl fun g _ => congrArg e (funext fun ax => Fin.ext ?_)
  match ax with
  | ⟨0, _⟩ => rfl
  | ⟨1, _⟩ => rfl

/-- The log-softmax of a 200×64 block as the kernel computes it — subtract the row maximum (kept as a column and spread
    over the lanes), exponentiate, sum the lanes, take the logarithm, subtract — is at (p, f) the log-softmax of row p. -/
theorem logSoftmax_apply (z : FVec Ideal S200x64 .f32) (hr : S200x64.Reduces [1] S200) (hφ hφ' : FKind.Formats .f32)
    (hm : (0xFF800000#32 : BitVec 32) = FKind.maximumf.neutral .f32 hφ)
    (ha : (0x00000000#32 : BitVec 32) = FKind.add.neutral .f32 hφ')
    (hc : S200.ShapeCasts S200x1) (hb : S200x1.Broadcasts S200x64) (p : Fin 200) (f : Fin 64) :
    subf
      (subf z (broadcastTo S200x64 (shapeCast S200x1 (multiReduction .maximumf [1] S200 z 0xFF800000#32 hr hφ hm) hc) hb))
      (broadcastTo S200x64
        (log (shapeCast S200x1
          (multiReduction .add [1] S200
            (exp (subf z (broadcastTo S200x64 (shapeCast S200x1 (multiReduction .maximumf [1] S200 z 0xFF800000#32 hr hφ hm) hc) hb)))
            0x00000000#32 hr hφ' ha) hc)) hb) (ix2 p f)
    = Cert.Gcn.logSoftmax (fun g => z (ix2 p g)) f := by
  have hmax : ∀ g : Fin 64,
      broadcastTo S200x64 (shapeCast S200x1 (multiReduction .maximumf [1] S200 z 0xFF800000#32 hr hφ hm) hc) hb (ix2 p g)
        = ⨆ g' : Fin 64, z (ix2 p g') := fun g => by
    rw [Cert.LibKeepdims.broadcastTo_a1_ab_apply, Cert.LibKeepdims.shapeCast_a_a1_apply, rowMax_apply]
  rw [subf_apply, subf_apply, hmax, Cert.LibKeepdims.broadcastTo_a1_ab_apply, log_apply,
    Cert.LibKeepdims.shapeCast_a_a1_apply, rowSum_apply]
  unfold Cert.Gcn.logSoftmax
  refine congrArg (fun s => (z (ix2 p f) - ⨆ g : Fin 64, z (ix2 p g)) - Ideal.log s) (Finset.sum_congr rfl fun g _ => ?_)
  rw [exp_apply, subf_apply, hmax]

/-! ## The payloads -/

/-- The first payload recasts a block to its own shape: the identity. -/
theorem pay1_eq (v : FVec Ideal S200x256 .bf16) : Gen.k0_pay1 (F := Ideal) v = v := by
  unfold Gen.k0_pay1
  exact shapeCast_self v _

/-- The first half-block of layer 1 at (p, q): entry q of the layer's row built from row p of the adjacency block. -/
theorem pay4_apply (v6 : Vec Ideal S10000x256 .f32) (v8 : Vec Ideal S200x10000 .f32) (v11 : Vec Ideal S256x256 .f32)
    (v13 : Vec Ideal S1x256 .f32) (p : Fin 200) (q : Fin 256) :
    Gen.k0_pay4 (F := Ideal) v6 v8 v11 v13 (ix2 p q)
      = Cert.Gcn.layerRow (fun l => v8 (ix2 p l)) (fun l k => v6 (ix2 l k)) (fun k j => v11 (ix2 k j)) (fun j => v13 (ix2 0 j)) q := by
  unfold Gen.k0_pay4 Gen.k0_pay3
  refine (congrFun (shapeCast_self _ _) (ix2 p q)).trans ?_
  refine (truncf_apply (φ := .f32) (ψ := .bf16) _ bitsLt_bf16_f32 (ix2 p q)).trans ?_
  exact hidden_apply (truncf (F := Ideal) (φ := .f32) .bf16 v8 bitsLt_bf16_f32) (truncf (F := Ideal) (φ := .f32) .bf16 v6 bitsLt_bf16_f32) v11 v13 _ _ p q

/-- The second half-block of layer 1 at (p, q). -/
theorem pay5_apply (v6 : Vec Ideal S10000x256 .f32) (v27 : Vec Ideal S200x10000 .f32) (v30 : Vec Ideal S256x256 .f32)
    (v32 : Vec Ideal S1x256 .f32) (p : Fin 200) (q : Fin 256) :
    Gen.k0_pay5 (F := Ideal) v6 v27 v30 v32 (ix2 p q)
      = Cert.Gcn.layerRow (fun l => v27 (ix2 p l)) (fun l k => v6 (ix2 l k)) (fun k j => v30 (ix2 k j)) (fun j => v32 (ix2 0 j)) q := by
  unfold Gen.k0_pay5 Gen.k0_pay3
  refine (truncf_apply (φ := .f32) (ψ := .bf16) _ bitsLt_bf16_f32 (ix2 p q)).trans ?_
  exact hidden_apply (truncf (F := Ideal) (φ := .f32) .bf16 v27 bitsLt_bf16_f32) (truncf (F := Ideal) (φ := .f32) .bf16 v6 bitsLt_bf16_f32) v30 v32 _ _ p q

/-- An output half-block over an adjacency block a and the first layer's result h, at (p, f): the output row of the
    node whose adjacency row is row p of a. -/
theorem pay2_apply (a : FVec Ideal S200x10000 .bf16) (h : Vec Ideal S10000x256 .bf16) (v41 : Vec Ideal S256x256 .f32)
    (v43 : Vec Ideal S1x256 .f32) (v49 : Vec Ideal S256x64 .f32) (v51 : Vec Ideal S1x64 .f32) (p : Fin 200) (f : Fin 64) :
    Gen.k0_pay2 (F := Ideal) a h (constant (F := Ideal) S200x256 .f32 0x00000000#32) v41 v43 v49 v51 (ix2 p f)
      = Cert.Gcn.outRow (fun l => a (ix2 p l)) (fun l k => h (ix2 l k)) (fun k j => v41 (ix2 k j)) (fun j => v43 (ix2 0 j))
          (fun k f => v49 (ix2 k f)) (fun f => v51 (ix2 0 f)) f := by
  unfold Gen.k0_pay2
  refine (logSoftmax_apply _ _ _ _ _ _ _ _ p f).trans ?_
  unfold Cert.Gcn.outRow
  refine congrArg (fun z => Cert.Gcn.logSoftmax z f) (funext fun g => ?_)
  refine (logits_apply _ _ _ _ _ p g).trans ?_
  refine congrArg₂ (· + ·) (Finset.sum_congr rfl fun k _ => congrArg₂ (· * ·) ?_ rfl) rfl
  exact hidden_apply a h v41 v43 _ _ p k

/-- The second output half-block at (p, f), its adjacency block narrowed to bf16 (the identity on extended reals). -/
theorem pay2_pay7_apply (v37 : Vec Ideal S200x10000 .f32) (v39 : Vec Ideal S10000x256 .bf16) (v41 : Vec Ideal S256x256 .f32)
    (v43 : Vec Ideal S1x256 .f32) (v49 : Vec Ideal S256x64 .f32) (v51 : Vec Ideal S1x64 .f32) (p : Fin 200) (f : Fin 64) :
    Gen.k0_pay2 (F := Ideal) (Gen.k0_pay7 v37) v39 (constant (F := Ideal) S200x256 .f32 0x00000000#32) v41 v43 v49 v51 (ix2 p f)
      = Cert.Gcn.outRow (fun l => v37 (ix2 p l)) (fun l k => v39 (ix2 l k)) (fun k j => v41 (ix2 k j)) (fun j => v43 (ix2 0 j))
          (fun k f => v49 (ix2 k f)) (fun f => v51 (ix2 0 f)) f :=
  pay2_apply (Gen.k0_pay7 v37) v39 v41 v43 v49 v51 p f

/-- The first output half-block at (p, f): the same arithmetic as the second, written out again by the kernel. -/
theorem pay6_apply (v6 : Vec Ideal S200x10000 .f32) (v8 : Vec Ideal S10000x256 .bf16) (v10 : Vec Ideal S256x256 .f32)
    (v12 : Vec Ideal S1x256 .f32) (v18 : Vec Ideal S256x64 .f32) (v20 : Vec Ideal S1x64 .f32) (p : Fin 200) (f : Fin 64) :
    Gen.k0_pay6 (F := Ideal) v6 v8 v10 v12 v18 v20 (ix2 p f)
      = Cert.Gcn.outRow (fun l => v6 (ix2 p l)) (fun l k => v8 (ix2 l k)) (fun k j => v10 (ix2 k j)) (fun j => v12 (ix2 0 j))
          (fun k f => v18 (ix2 k f)) (fun f => v20 (ix2 0 f)) f :=
  pay2_apply (truncf (F := Ideal) (φ := .f32) .bf16 v6 bitsLt_bf16_f32) v8 v10 v12 v18 v20 p f

end Cert.KernelIdeal.Pay

end
-- ==== Proof.KIOutB.lean ====
/-
  What the output window's staging buffer holds after a second-layer point, in the specification's terms.

  The point stores two pieces of 200 whole rows into the 400-row staging buffer: rows 0 .. 199 from the point's first
  block of the adjacency matrix, rows 200 .. 399 from its second, both over the whole first layer.  The first layer at
  row r is the half-block its point r / 400 computed for local row r mod 200, which is the specification's layer row
  of node r because the point's adjacency blocks are rows 400·(r / 400) .. of the adjacency matrix and the other blocks
  are the whole feature, weight and bias arrays.  So after point t ≥ 25 the buffer's row p is the specification's
  output row of node 400·(t − 25) + p.
-/
import proofs.«116359_g171798692301_cont_8to1_52_15_alg».proof.Proof.KIData
import proofs.«116359_g171798692301_cont_8to1_52_15_alg».proof.Proof.KIArgs
import proofs.«116359_g171798692301_cont_8to1_52_15_alg».proof.Proof.KIBlocks
import proofs.«116359_g171798692301_cont_8to1_52_15_alg».proof.Proof.Payload
import Idealize.ShloMosaic.Lib.Pipeline.Value
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

section AnyInstance

variable {F : FTy → Type} [FloatOps F]
variable (m : (ℓ : Loc nD τ sig) → Buf (Elt F) ℓ)

/-- The two spellings of the zero offsets. -/
theorem zero_offsets : (![0, 0] : Fin 2 → Nat) = fun _ => 0 := funext fun a => by fin_cases a <;> rfl

/-- What the output window's staging buffer holds after a second-layer point, by halves: rows 0 .. 199 are the first
    output half-block, computed from the point's first adjacency block and the whole first layer, rows 200 .. 399 the
    second, from the point's second adjacency block. -/
theorem out9_halves (c : Dev nD) (t : Fin cfg0.N) (h : 25 ≤ t.val) (y : S400x64.Idx) :
    out9 m c t y
      = if h0 : (y 0).val < 200 then
          k0_pay6 (iblk m c 0 t) (H1 m c) (iblk m c 5 t) (iblk m c 6 t) (iblk m c 7 t) (iblk m c 8 t)
            (ix2 (⟨(y 0).val, h0⟩ : Fin 200) (⟨(y 1).val, idx2_lt1 y⟩ : Fin 64))
        else
          k0_pay2 (k0_pay7 (iblk m c 1 t)) (H1 m c) (constant S200x256 .f32 0x00000000#32) (iblk m c 5 t) (iblk m c 6 t)
            (iblk m c 7 t) (iblk m c 8 t)
            (ix2 (⟨(y 0).val - 200, by have := idx2_lt0 y; omega⟩ : Fin 200) (⟨(y 1).val, idx2_lt1 y⟩ : Fin 64)) := by
  have hy0 : (y 0).val < 400 := idx2_lt0 y
  have eH : (View.whole cc0_scratch0).read (Elt F) ((Memref.isWhole_whole cc0_scratch0).unread (H1 m c)) = H1 m c :=
    (Memref.isWhole_whole cc0_scratch0).read_unread (H1 m c)
  unfold out9
  rw [dif_pos h]
  unfold piecesB kernelRun0_B
  dsimp only
  sl_unfold_run_names
  simp only [View.readAt_eq_ld, Memref.IsWhole.read_unread, eH, View.ld_unit_zero (S := S10000x256) zero_offsets,
    View.ld_unit_zero (S := S200x10000) zero_offsets, View.ld_unit_zero (S := S256x256) zero_offsets,
    View.ld_unit_zero (S := S1x256) zero_offsets, View.ld_unit_zero (S := S256x64) zero_offsets,
    View.ld_unit_zero (S := S1x64) zero_offsets]
  by_cases h0 : (y 0).val < 200
  · rw [dif_pos h0]
    refine (View.read_writes_cons_rows_of_not_mem (o := 200) _ _ _ _ _ y rfl rfl (Or.inl h0)).trans ?_
    exact View.read_writes_cons_rows_of_mem (o := 0) _ _ _ _ _ y
      (ix2 (⟨(y 0).val, h0⟩ : Fin 200) (⟨(y 1).val, idx2_lt1 y⟩ : Fin 64)) rfl
      (by show (y 0).val = 0 + (y 0).val; omega) rfl
  · rw [dif_neg h0]
    exact View.read_writes_cons_rows_of_mem (o := 200) _ _ _ _ _ y
      (ix2 (⟨(y 0).val - 200, by omega⟩ : Fin 200) (⟨(y 1).val, idx2_lt1 y⟩ : Fin 64)) rfl
      (by show (y 0).val = 200 + ((y 0).val - 200); omega) rfl

/-- Row r of the first layer is stored at point r / 400. -/
theorem row_point (r : Fin 10000) : r.val / 400 < cfg0.N := by
  have := r.isLt
  have : cfg0.N = 50 := N_0
  omega

/-- The first layer at (r, j), by the half of its point's rows that r falls in. -/
theorem H1_ix2 (c : Dev nD) (r : Fin 10000) (j : Fin 256) :
    H1 m c (ix2 r j)
      = if r.val % 400 < 200 then
          k0_pay4 (iblk m c 2 ⟨r.val / 400, row_point r⟩) (iblk m c 0 ⟨r.val / 400, row_point r⟩)
            (iblk m c 3 ⟨r.val / 400, row_point r⟩) (iblk m c 4 ⟨r.val / 400, row_point r⟩)
            (ix2 (⟨r.val % 200, Nat.mod_lt _ (by decide)⟩ : Fin 200) j)
        else
          k0_pay1 (k0_pay5 (iblk m c 2 ⟨r.val / 400, row_point r⟩) (iblk m c 1 ⟨r.val / 400, row_point r⟩)
            (iblk m c 3 ⟨r.val / 400, row_point r⟩) (iblk m c 4 ⟨r.val / 400, row_point r⟩))
            (ix2 (⟨r.val % 200, Nat.mod_lt _ (by decide)⟩ : Fin 200) j) := rfl

end AnyInstance

section AtIdeal

variable (m : (ℓ : Loc nD τ sig) → Buf (Elt Ideal) ℓ)

/-- The first layer, whole, is the specification's first layer with the neighbourhood sum taken first. -/
theorem H1_apply (c : Dev nD) (r : Fin 10000) (j : Fin 256) :
    H1 (F := Ideal) m c (ix2 r j) = Cert.Gcn.layerAH (aADJ m c) (aX m c) (aW1 m c) (aB1 m c) r j := by
  have hr := r.isLt
  refine (H1_ix2 m c r j).trans ?_
  unfold Cert.Gcn.layerAH
  have hX : (fun l k => iblk (F := Ideal) m c 2 ⟨r.val / 400, row_point r⟩ (ix2 l k)) = aX m c :=
    funext fun l => funext fun k => iblk2_apply m c _ l k
  have hW : (fun k j => iblk (F := Ideal) m c 3 ⟨r.val / 400, row_point r⟩ (ix2 k j)) = aW1 m c :=
    funext fun k => funext fun j => iblk3_apply m c _ k j
  have hB : (fun j => iblk (F := Ideal) m c 4 ⟨r.val / 400, row_point r⟩ (ix2 (0 : Fin 1) j)) = aB1 m c :=
    funext fun j => iblk4_apply m c _ j
  by_cases hlt : r.val % 400 < 200
  · rw [if_pos hlt]
    refine (Pay.pay4_apply _ _ _ _ _ j).trans ?_
    have hA : (fun l => iblk (F := Ideal) m c 0 ⟨r.val / 400, row_point r⟩
        (ix2 (⟨r.val % 200, Nat.mod_lt _ (by decide)⟩ : Fin 200) l)) = aADJ m c r :=
      funext fun l => (iblk0_apply m c _ _ l).trans
        (congrFun (congrArg (aADJ m c) (Fin.ext (by show 400 * (r.val / 400 % 25) + r.val % 200 = r.val; omega))) l)
    rw [hA, hX, hW, hB]
  · rw [if_neg hlt]
    refine (congrFun (Pay.pay1_eq _) _).trans ?_
    refine (Pay.pay5_apply _ _ _ _ _ j).trans ?_
    have hA : (fun l => iblk (F := Ideal) m c 1 ⟨r.val / 400, row_point r⟩
        (ix2 (⟨r.val % 200, Nat.mod_lt _ (by decide)⟩ : Fin 200) l)) = aADJ m c r :=
      funext fun l => (iblk1_apply m c _ _ l).trans
        (congrFun (congrArg (aADJ m c) (Fin.ext (by show 400 * (r.val / 400 % 25) + 200 + r.val % 200 = r.val; omega))) l)
    rw [hA, hX, hW, hB]

/-- After a second-layer point the output window's staging buffer holds that point's 400 rows of the specification's
    result. -/
theorem out9_apply (c : Dev nD) (t : Fin cfg0.N) (h : 25 ≤ t.val) (p : Fin 400) (f : Fin 64) :
    out9 (F := Ideal) m c t (ix2 p f)
      = Cert.Gcn.netAH (aADJ m c) (aX m c) (aW1 m c) (aB1 m c) (aW2 m c) (aB2 m c) (aWF m c) (aBF m c)
          ⟨400 * (t.val - 25) + p.val, by have := t.isLt; have := p.isLt; have : cfg0.N = 50 := N_0; omega⟩ f := by
  have htl : t.val < 50 := by have := t.isLt; have : cfg0.N = 50 := N_0; omega
  have hp := p.isLt
  have hH : (fun l k => H1 (F := Ideal) m c (ix2 l k)) = Cert.Gcn.layerAH (aADJ m c) (aX m c) (aW1 m c) (aB1 m c) :=
    funext fun l => funext fun k => H1_apply m c l k
  have hW2 : (fun k j => iblk (F := Ideal) m c 5 t (ix2 k j)) = aW2 m c := funext fun k => funext fun j => iblk5_apply m c t k j
  have hB2 : (fun j => iblk (F := Ideal) m c 6 t (ix2 (0 : Fin 1) j)) = aB2 m c := funext fun j => iblk6_apply m c t j
  have hWF : (fun k f => iblk (F := Ideal) m c 7 t (ix2 k f)) = aWF m c := funext fun k => funext fun f => iblk7_apply m c t k f
  have hBF : (fun f => iblk (F := Ideal) m c 8 t (ix2 (0 : Fin 1) f)) = aBF m c := funext fun f => iblk8_apply m c t f
  refine (out9_halves m c t h (ix2 p f)).trans ?_
  rw [Cert.Gcn.netAH_eq_outRow]
  by_cases h0 : p.val < 200
  · refine (dif_pos h0).trans ?_
    refine (Pay.pay6_apply _ _ _ _ _ _ _ _).trans ?_
    rw [hH, hW2, hB2, hWF, hBF]
    have hA : (fun l => iblk (F := Ideal) m c 0 t (ix2 (⟨p.val, h0⟩ : Fin 200) l))
        = aADJ m c ⟨400 * (t.val - 25) + p.val, by omega⟩ :=
      funext fun l => (iblk0_apply m c t ⟨p.val, h0⟩ l).trans
        (congrFun (congrArg (aADJ m c) (Fin.ext (by show 400 * (t.val % 25) + p.val = 400 * (t.val - 25) + p.val; omega))) l)
    exact congrArg (fun a => Cert.Gcn.outRow a (Cert.Gcn.layerAH (aADJ m c) (aX m c) (aW1 m c) (aB1 m c)) (aW2 m c) (aB2 m c)
      (aWF m c) (aBF m c) f) hA
  · refine (dif_neg h0).trans ?_
    refine (Pay.pay2_pay7_apply _ _ _ _ _ _ _ _).trans ?_
    rw [hH, hW2, hB2, hWF, hBF]
    have hA : (fun l => iblk (F := Ideal) m c 1 t (ix2 (⟨p.val - 200, by omega⟩ : Fin 200) l))
        = aADJ m c ⟨400 * (t.val - 25) + p.val, by omega⟩ :=
      funext fun l => (iblk1_apply m c t ⟨p.val - 200, by omega⟩ l).trans
        (congrFun (congrArg (aADJ m c) (Fin.ext (by show 400 * (t.val % 25) + 200 + (p.val - 200) = 400 * (t.val - 25) + p.val; omega))) l)
    exact congrArg (fun a => Cert.Gcn.outRow a (Cert.Gcn.layerAH (aADJ m c) (aX m c) (aW1 m c) (aB1 m c)) (aW2 m c) (aB2 m c)
      (aWF m c) (aBF m c) f) hA

end AtIdeal

end Cert.KernelIdeal.Gen

end
-- ==== Proof.KIValue.lean ====
/-
  From blocks to the array: the result array of the idealized kernel after the run.  The output window's block is
  written back at the 25 second-layer points, point t writing rows 400·(t − 25) … 400·(t − 25) + 399; what it writes
  is those rows of the specification's result; the 25 blocks cover the 10000 rows, so the array ends holding the
  specification's result.
-/
import proofs.«116359_g171798692301_cont_8to1_52_15_alg».proof.Proof.KIData
import proofs.«116359_g171798692301_cont_8to1_52_15_alg».proof.Proof.KIArgs
import proofs.«116359_g171798692301_cont_8to1_52_15_alg».proof.Proof.KIOutB
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable (m : (ℓ : Loc nD τ sig) → Buf (Elt Ideal) ℓ) (ρ : Dev nD → PrngReg)

/-- The output window's block is written back exactly at the second-layer points, -/
theorem flush9_ge : ∀ t : Fin cfg0.N, (cfg0.win 9).flush t = true → 25 ≤ t.val :=
  (by decide +kernel : ∀ t : Fin grid0.N, win0_9.flush t = true → 25 ≤ t.val)
theorem flush9_of_ge : ∀ t : Fin cfg0.N, 25 ≤ t.val → (cfg0.win 9).flush t = true :=
  (by decide +kernel : ∀ t : Fin grid0.N, 25 ≤ t.val → win0_9.flush t = true)
/-- where its block index is (t − 25, 0): rows 400·(t − 25) … of the result. -/
theorem idx9 : ∀ t : Fin cfg0.N, 25 ≤ t.val → win0_9.index t (0 : Fin 2) = t.val - 25 ∧ win0_9.index t (1 : Fin 2) = 0 :=
  (by decide +kernel : ∀ t : Fin grid0.N, 25 ≤ t.val → win0_9.index t (0 : Fin 2) = t.val - 25 ∧ win0_9.index t (1 : Fin 2) = 0)

/-- WHAT POINT t WRITES BACK is block t of the specification's result array. -/
theorem flushed9_eq (c : Dev nD) (t : Fin cfg0.N) (hf : (cfg0.win 9).flush t = true) :
    (dats (F := Ideal) m 0 c).flushed 9 t = ((cfg0.win 9).blk t).view.read (Elt Ideal) (G m c) := by
  have h := flush9_ge t hf
  show (cfg0.win 9).cut (grid0.coords t) ((dats (F := Ideal) m 0 c).after 9 t) = _
  rw [after0_9]
  funext (y : S400x64.Idx)
  show out9 (F := Ideal) m c t y = G m c (((cfg0.win 9).blk t).view.emb y)
  refine (congrArg (out9 (F := Ideal) m c t) (eq_ix2 y)).trans ((out9_apply m c t h (y 0) (y 1)).trans ?_)
  unfold G
  have e0 : ((((cfg0.win 9).blk t).view.emb y) 0).val = 400 * (t.val - 25) + (y 0).val := by
    show win0_9.index t (0 : Fin 2) * 400 + 1 * (y 0).val = _
    rw [(idx9 t h).1]; omega
  have e1 : ((((cfg0.win 9).blk t).view.emb y) 1).val = (y 1).val := by
    show win0_9.index t (1 : Fin 2) * 64 + 1 * (y 1).val = _
    rw [(idx9 t h).2]; omega
  exact congrArg₂ (Cert.Gcn.netAH (aADJ m c) (aX m c) (aW1 m c) (aB1 m c) (aW2 m c) (aB2 m c) (aWF m c) (aBF m c)) (Fin.ext e0.symm) (Fin.ext e1.symm)

/-- An index of the result is in point t's block iff each coordinate is in the block's range on its axis. -/
theorem mem_blk9 (t : Fin cfg0.N) (i : S10000x64.Idx) :
    i ∈ ((cfg0.win 9).blk t).view.set ↔ ∀ a : Fin 2, win0_9.index t a * S400x64.size a ≤ (i a).val ∧ (i a).val < win0_9.index t a * S400x64.size a + S400x64.size a := by
  show i ∈ ((View.whole main_v0).slice (win0_9.rect t)).set ↔ _
  rw [View.set_slice_whole, Rect.mem_set_unit]
  exact Iff.rfl

/-- Every row r of the result is written back by the point 25 + r / 400. -/
theorem cover9 (i : S10000x64.Idx) : ∃ t : Fin cfg0.N, (cfg0.win 9).flush t = true ∧ i ∈ ((cfg0.win 9).blk t).view.set := by
  have hi0 : (i 0).val < 10000 := idx2_lt0 i
  have hi1 : (i 1).val < 64 := idx2_lt1 i
  have hN : cfg0.N = 50 := N_0
  have hlt : 25 + (i 0).val / 400 < cfg0.N := by omega
  have hge : 25 ≤ (⟨25 + (i 0).val / 400, hlt⟩ : Fin cfg0.N).val := Nat.le_add_right _ _
  refine ⟨⟨25 + (i 0).val / 400, hlt⟩, flush9_of_ge _ hge, ?_⟩
  rw [mem_blk9]
  obtain ⟨q0, q1⟩ := idx9 ⟨25 + (i 0).val / 400, hlt⟩ hge
  have q0' : win0_9.index ⟨25 + (i 0).val / 400, hlt⟩ (0 : Fin 2) = (i 0).val / 400 := by rw [q0]; show 25 + (i 0).val / 400 - 25 = (i 0).val / 400; omega
  intro a
  match a with
  | ⟨0, _⟩ =>
    show win0_9.index ⟨25 + (i 0).val / 400, hlt⟩ (0 : Fin 2) * 400 ≤ (i 0).val ∧ (i 0).val < win0_9.index ⟨25 + (i 0).val / 400, hlt⟩ (0 : Fin 2) * 400 + 400
    rw [q0']; omega
  | ⟨1, _⟩ =>
    show win0_9.index ⟨25 + (i 0).val / 400, hlt⟩ (1 : Fin 2) * 64 ≤ (i 1).val ∧ (i 1).val < win0_9.index ⟨25 + (i 0).val / 400, hlt⟩ (1 : Fin 2) * 64 + 64
    rw [q1]; omega

/-- THE RESULT ARRAY after the run is the specification's. -/
theorem final9 (c : Dev nD) : (dats (F := Ideal) m 0 c).arrAt 9 cfg0.N = G m c :=
  (dats (F := Ideal) m 0 c).arrAt_eq_of_cover 9 (G m c) (fun t hf => flushed9_eq m c t hf) (fun i => cover9 i)

end Cert.KernelIdeal.Gen

end
-- ==== Proof.KIRun.lean ====
/-
  The run of the idealized kernel's program, read: it terminates, nothing faulting, with the result array at the
  specification's result of the argument arrays and the argument arrays as launched.
-/
import proofs.«116359_g171798692301_cont_8to1_52_15_alg».proof.Proof.KIFrame
import proofs.«116359_g171798692301_cont_8to1_52_15_alg».proof.Proof.KIValue

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans (final9 m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩) (run_main (F := Ideal) m ρ)

end Cert.KernelIdeal.Gen

end
-- ==== Proof.RefIsSpec.lean ====
/-
  The reference program's result, read index by index, is the specification's network with every layer's feature
  product taken first (`Cert.Gcn.netHW`).  Stage by stage over array VARIABLES: each matrix product is the sum over the
  contracted coordinate, each bias a row vector broadcast over the rows, each rectifier a maximum with the zero word;
  the log-softmax's row maximum is a supremum over the 64 classes (the host reduction starts from −∞, which is ⊥, and the
  following maximum with a broadcast −∞ changes nothing), and its sum of exponentials starts from the zero word, which
  is 0.  The last theorem instantiates the variables at the launch contents of the eight argument buffers.
-/
import proofs.«116359_g171798692301_cont_8to1_52_15_alg».proof.Proof.RefRead
import proofs.«116359_g171798692301_cont_8to1_52_15_alg».proof.Proof.Spec
import proofs.«116359_g171798692301_cont_8to1_52_15_alg».proof.Proof.LibExtremeReduce

noncomputable section

namespace Cert.ReferenceIdeal.RefValue

open Cert.ReferenceIdeal Cert.ReferenceIdeal.Gen Cert.ReferenceIdeal.ReadP Idealize.ShloMosaic Idealize.ShloMosaic.ValueIdx Cert.Gcn

/-- Two rank-2 indices given coordinate by coordinate are equal when both coordinates are. -/
local macro "idx2" : tactic => `(tactic| (funext a; match a with | ⟨0, _⟩ => rfl | ⟨1, _⟩ => rfl))
local macro "idx1" : tactic => `(tactic| (funext a; match a with | ⟨0, _⟩ => rfl))

variable (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal))

/-! The eight argument arrays as the matrices and vectors of the specification. -/

/-- The adjacency matrix. -/
abbrev adjOf (x1 : (⟨S10000x10000, .f32⟩ : BufTy).Contents (Elt Ideal)) : Fin 10000 → Fin 10000 → EReal := fun r l => x1 (ix2 r l)
/-- The node features. -/
abbrev featOf (x0 : (⟨S10000x256, .f32⟩ : BufTy).Contents (Elt Ideal)) : Fin 10000 → Fin 256 → EReal := fun l k => x0 (ix2 l k)
/-- A 256 × 256 weight matrix. -/
abbrev matOf (w : (⟨S256x256, .f32⟩ : BufTy).Contents (Elt Ideal)) : Fin 256 → Fin 256 → EReal := fun k j => w (ix2 k j)
/-- A bias of 256 entries. -/
abbrev vecOf (b : (⟨S256, .f32⟩ : BufTy).Contents (Elt Ideal)) : Fin 256 → EReal := fun j => b (ix1 j)
/-- The final 256 × 64 weight matrix. -/
abbrev outMatOf (w : (⟨S256x64, .f32⟩ : BufTy).Contents (Elt Ideal)) : Fin 256 → Fin 64 → EReal := fun k f => w (ix2 k f)
/-- The final bias of 64 entries. -/
abbrev outVecOf (b : (⟨S64, .f32⟩ : BufTy).Contents (Elt Ideal)) : Fin 64 → EReal := fun f => b (ix1 f)

/-- The first layer of the specification, feature product first. -/
abbrev hidden1 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) :
    Fin 10000 → Fin 256 → EReal :=
  layerHW (adjOf x1) (featOf x0) (matOf x2) (vecOf x3)

/-- The second layer of the specification, feature product first. -/
abbrev hidden2 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) : Fin 10000 → Fin 256 → EReal :=
  layerHW (adjOf x1) (hidden1 x0 x1 x2 x3) (matOf x4) (vecOf x5)

/-! ## The first layer -/

/-- x · W1 at (l, j). -/
theorem v0_at (l : Fin 10000) (j : Fin 256) :
    val_main_v0 (F := Ideal) x0 x2 (ix2 l j) = ∑ k : Fin 256, x0 (ix2 l k) * x2 (ix2 k j) := by
  rw [val_main_v0_apply]
  refine Finset.sum_congr rfl fun k _ => ?_
  rw [show lidx_main_v0 (ix2 l j) k = ix2 l k by idx2, show ridx_main_v0 (ix2 l j) k = ix2 k j by idx2]

/-- adj · (x · W1) at (r, j). -/
theorem v1_at (r : Fin 10000) (j : Fin 256) :
    val_main_v1 (F := Ideal) x0 x1 x2 (ix2 r j)
      = ∑ l : Fin 10000, x1 (ix2 r l) * ∑ k : Fin 256, x0 (ix2 l k) * x2 (ix2 k j) := by
  rw [val_main_v1_apply]
  refine Finset.sum_congr rfl fun l _ => ?_
  rw [show lidx_main_v1 (ix2 r j) l = ix2 r l by idx2, show ridx_main_v1 (ix2 r j) l = ix2 l j by idx2, v0_at]

/-- The first bias broadcast over the rows, at (r, j). -/
theorem v3_at (r : Fin 10000) (j : Fin 256) : val_main_v3 (F := Ideal) x3 (ix2 r j) = x3 (ix1 j) := by
  rw [val_main_v3_apply, val_main_v2_apply]
  exact congrArg x3 (by idx1)

/-- The first rectifier's threshold, at any index. -/
theorem z0_at (i : S10000x256.Idx) : val_main_call0_v0 (F := Ideal) i = zero32 := by
  rw [val_main_call0_v0_apply, val_main_call0_cst_apply]; rfl

/-- The first layer's result is the specification's first layer. -/
theorem v5_at (r : Fin 10000) (j : Fin 256) :
    val_main_v5 (F := Ideal) x0 x1 x2 x3 (ix2 r j) = hidden1 x0 x1 x2 x3 r j := by
  rw [val_main_v5_apply, val_main_v4_apply, v1_at, v3_at, z0_at]
  rfl

/-! ## The second layer -/

/-- h1 · W2 at (l, j). -/
theorem v6_at (l : Fin 10000) (j : Fin 256) :
    val_main_v6 (F := Ideal) x0 x1 x2 x3 x4 (ix2 l j) = ∑ k : Fin 256, hidden1 x0 x1 x2 x3 l k * x4 (ix2 k j) := by
  rw [val_main_v6_apply]
  refine Finset.sum_congr rfl fun k _ => ?_
  rw [show lidx_main_v6 (ix2 l j) k = ix2 l k by idx2, show ridx_main_v6 (ix2 l j) k = ix2 k j by idx2, v5_at]

/-- adj · (h1 · W2) at (r, j). -/
theorem v7_at (r : Fin 10000) (j : Fin 256) :
    val_main_v7 (F := Ideal) x0 x1 x2 x3 x4 (ix2 r j)
      = ∑ l : Fin 10000, x1 (ix2 r l) * ∑ k : Fin 256, hidden1 x0 x1 x2 x3 l k * x4 (ix2 k j) := by
  rw [val_main_v7_apply]
  refine Finset.sum_congr rfl fun l _ => ?_
  rw [show lidx_main_v7 (ix2 r j) l = ix2 r l by idx2, show ridx_main_v7 (ix2 r j) l = ix2 l j by idx2, v6_at]

/-- The second bias broadcast over the rows, at (r, j). -/
theorem v9_at (r : Fin 10000) (j : Fin 256) : val_main_v9 (F := Ideal) x5 (ix2 r j) = x5 (ix1 j) := by
  rw [val_main_v9_apply, val_main_v8_apply]
  exact congrArg x5 (by idx1)

/-- The second rectifier's threshold, at any index. -/
theorem z1_at (i : S10000x256.Idx) : val_main_call1_v0 (F := Ideal) i = zero32 := by
  rw [val_main_call1_v0_apply, val_main_call1_cst_apply]; rfl

/-- The second layer's result is the specification's second layer. -/
theorem v11_at (r : Fin 10000) (j : Fin 256) :
    val_main_v11 (F := Ideal) x0 x1 x2 x3 x4 x5 (ix2 r j) = hidden2 x0 x1 x2 x3 x4 x5 r j := by
  rw [val_main_v11_apply, val_main_v10_apply, v7_at, v9_at, z1_at]
  rfl

/-! ## The logits -/

/-- h2 · Wf at (r, f). -/
theorem v12_at (r : Fin 10000) (f : Fin 64) :
    val_main_v12 (F := Ideal) x0 x1 x2 x3 x4 x5 x6 (ix2 r f)
      = ∑ k : Fin 256, hidden2 x0 x1 x2 x3 x4 x5 r k * x6 (ix2 k f) := by
  rw [val_main_v12_apply]
  refine Finset.sum_congr rfl fun k _ => ?_
  rw [show lidx_main_v12 (ix2 r f) k = ix2 r k by idx2, show ridx_main_v12 (ix2 r f) k = ix2 k f by idx2, v11_at]

/-- The final bias broadcast over the rows, at (r, f). -/
theorem v14_at (r : Fin 10000) (f : Fin 64) : val_main_v14 (F := Ideal) x7 (ix2 r f) = x7 (ix1 f) := by
  rw [val_main_v14_apply, val_main_v13_apply]
  exact congrArg x7 (by idx1)

/-- The reference's logits are the specification's. -/
theorem v15_at (r : Fin 10000) (f : Fin 64) :
    val_main_v15 (F := Ideal) x0 x1 x2 x3 x4 x5 x6 x7 (ix2 r f)
      = logits (hidden2 x0 x1 x2 x3 x4 x5) (outMatOf x6) (outVecOf x7) r f := by
  rw [val_main_v15_apply, v12_at, v14_at]
  rfl

/-! ## The log-softmax of a row -/

/-- The reduced index r with class g put back is (r, g). -/
theorem lift_row (h : S10000x64.Reduces [1] S10000) (r : Fin 10000) (g : Fin (S10000x64.size 1)) :
    h.lift (ix1 r) g = ix2 r (⟨g.val, g.isLt⟩ : Fin 64) := by
  funext c; apply Fin.ext
  fin_cases c <;> rfl

/-- From −∞ the host's reduction with a maximum body over the classes, at row r, is the supremum of that row. -/
theorem rowMax (y : (⟨S10000x64, .f32⟩ : BufTy).Contents (Elt Ideal)) (r : Fin 10000) :
    Host.reduce FloatOps.maximumf y (constant (F := Ideal) S_ .f32 0xFF800000#32) reducesTo_S10000x64_S10000_d1 h_S_ (ix1 r)
      = ⨆ g : Fin 64, y (ix2 r g) := by
  rw [ExtremeReduce.hostReduce_max_single y reducesTo_S10000x64_S10000_d1 (by decide) h_S_ (ix1 r)]
  exact iSup_congr fun g => congrArg y (lift_row _ r g)

/-- The row maximum broadcast back over the classes, at (r, f): the supremum of row r of the logits. -/
theorem c4_at (r : Fin 10000) (f : Fin 64) :
    val_main_call2_v4 (F := Ideal) x0 x1 x2 x3 x4 x5 x6 x7 (ix2 r f) = ⨆ g : Fin 64, val_main_v15 (F := Ideal) x0 x1 x2 x3 x4 x5 x6 x7 (ix2 r g) := by
  rw [val_main_call2_v4_apply, val_main_call2_v3_apply, val_main_call2_v2_apply, val_main_call2_v1_apply,
    val_main_call2_cst_0_apply, show idx_main_call2_v3 (idx_main_call2_v4 (ix2 r f)) = ix1 r by idx1]
  unfold val_main_call2_v0 val_main_call2_cst
  generalize val_main_v15 (F := Ideal) x0 x1 x2 x3 x4 x5 x6 x7 = y
  rw [rowMax y r]
  simp only [Ideal.maximumf_def, Ideal.ofBits_def, ExtremeReduce.ofBits_negInf, max_bot_left]

/-- The shifted logits, at (r, f). -/
theorem c5_at (r : Fin 10000) (f : Fin 64) :
    val_main_call2_v5 (F := Ideal) x0 x1 x2 x3 x4 x5 x6 x7 (ix2 r f)
      = val_main_v15 (F := Ideal) x0 x1 x2 x3 x4 x5 x6 x7 (ix2 r f) - ⨆ g : Fin 64, val_main_v15 (F := Ideal) x0 x1 x2 x3 x4 x5 x6 x7 (ix2 r g) := by
  rw [val_main_call2_v5_apply, c4_at]
  rfl

/-- The logarithm of the row's sum of exponentials, broadcast back over the classes, at (r, f). -/
theorem c10_at (r : Fin 10000) (f : Fin 64) :
    val_main_call2_v10 (F := Ideal) x0 x1 x2 x3 x4 x5 x6 x7 (ix2 r f)
      = Ideal.log (∑ g : Fin 64, Ideal.exp (val_main_v15 (F := Ideal) x0 x1 x2 x3 x4 x5 x6 x7 (ix2 r g)
          - ⨆ g' : Fin 64, val_main_v15 (F := Ideal) x0 x1 x2 x3 x4 x5 x6 x7 (ix2 r g'))) := by
  rw [val_main_call2_v10_apply, val_main_call2_v9_apply, val_main_call2_v8_apply,
    show idx_main_call2_v8 (idx_main_call2_v10 (ix2 r f)) = ix1 r by idx1, val_main_call2_v7_apply,
    val_main_call2_cst_1_apply]
  simp only [Ideal.hostUnary_log_def, Ideal.ofBits_def, Ideal.ofBits_zero_f32, zero_add]
  refine congrArg Ideal.log (Finset.sum_congr rfl fun g _ => ?_)
  rw [show idx_main_call2_v7 (ix1 r) g = ix2 r g by idx2, val_main_call2_v6_apply, c5_at]
  rfl

/-- THE REFERENCE'S RESULT AT (r, f) IS THE SPECIFICATION, every layer's feature product taken first. -/
theorem val_main_v16_at (r : Fin 10000) (f : Fin 64) :
    val_main_v16 (F := Ideal) x0 x1 x2 x3 x4 x5 x6 x7 (ix2 r f)
      = netHW (fun r l => x1 (ix2 r l)) (fun l k => x0 (ix2 l k)) (fun k j => x2 (ix2 k j)) (fun j => x3 (ix1 j))
          (fun k j => x4 (ix2 k j)) (fun j => x5 (ix1 j)) (fun k f => x6 (ix2 k f)) (fun f => x7 (ix1 f)) r f := by
  rw [val_main_v16_apply, c5_at, c10_at]
  have hz : (fun g : Fin 64 => val_main_v15 (F := Ideal) x0 x1 x2 x3 x4 x5 x6 x7 (ix2 r g))
      = logits (hidden2 x0 x1 x2 x3 x4 x5) (outMatOf x6) (outVecOf x7) r := funext fun g => v15_at x0 x1 x2 x3 x4 x5 x6 x7 r g
  show (fun g : Fin 64 => val_main_v15 (F := Ideal) x0 x1 x2 x3 x4 x5 x6 x7 (ix2 r g)) f
        - (⨆ g : Fin 64, (fun g : Fin 64 => val_main_v15 (F := Ideal) x0 x1 x2 x3 x4 x5 x6 x7 (ix2 r g)) g)
      - Ideal.log (∑ g : Fin 64, Ideal.exp ((fun g : Fin 64 => val_main_v15 (F := Ideal) x0 x1 x2 x3 x4 x5 x6 x7 (ix2 r g)) g
          - ⨆ g' : Fin 64, (fun g : Fin 64 => val_main_v15 (F := Ideal) x0 x1 x2 x3 x4 x5 x6 x7 (ix2 r g)) g')) = _
  rw [hz]
  rfl

/-- THE REFERENCE IS THE SPECIFICATION: on every device, the array the reference's run leaves in its result buffer is,
    index by index, the two-layer network of the specification (feature products first) over the launch contents of
    the eight argument buffers. -/
theorem res_main_v16_eq_netHW (m : (ℓ : Loc nD τ sig) → Buf (Elt Ideal) ℓ) (c : Dev nD) (i : S10000x64.Idx) :
    Cert.ReferenceIdeal.ValueP.res_main_v16 (F := Ideal) m c i
      = netHW (fun r l => m ((c.tc : Thread nD τ).loc main_arg1) (ix2 r l))
          (fun l k => m ((c.tc : Thread nD τ).loc main_arg0) (ix2 l k))
          (fun k j => m ((c.tc : Thread nD τ).loc main_arg2) (ix2 k j))
          (fun j => m ((c.tc : Thread nD τ).loc main_arg3) (ix1 j))
          (fun k j => m ((c.tc : Thread nD τ).loc main_arg4) (ix2 k j))
          (fun j => m ((c.tc : Thread nD τ).loc main_arg5) (ix1 j))
          (fun k f => m ((c.tc : Thread nD τ).loc main_arg6) (ix2 k f))
          (fun f => m ((c.tc : Thread nD τ).loc main_arg7) (ix1 f))
          ⟨(i 0).val, (i 0).isLt⟩ ⟨(i 1).val, (i 1).isLt⟩ := by
  rw [Cert.ReferenceIdeal.ReadP.val_main_v16_eq]
  obtain ⟨r, f, rfl⟩ : ∃ (r : Fin 10000) (f : Fin 64), i = ix2 r f := ⟨i 0, i 1, eq_ix2 i⟩
  exact val_main_v16_at _ _ _ _ _ _ _ _ r f

end Cert.ReferenceIdeal.RefValue

end
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.SpecLaw.lean ====
/-
  The algebraic law between the two bracketings of a graph-convolution layer, and of the whole two-layer network:
  on arrays whose entries are real numbers, (adj · h) · W and adj · (h · W) are the same matrix, because finite sums of
  reals commute and multiplication distributes over them.  (At infinite entries the two can differ, so the law is
  stated under "every entry is the image of a real".)
-/
import Mathlib
import proofs.«116359_g171798692301_cont_8to1_52_15_alg».proof.Proof.Spec
import proofs.«116359_g171798692301_cont_8to1_52_15_alg».proof.Proof.LibSumAssoc

noncomputable section

namespace Cert.Gcn

open Idealize.ShloMosaic

/-- A sum of two real entries is a real entry. -/
theorem add_real {a b : EReal} (ha : ∃ r : ℝ, a = r) (hb : ∃ r : ℝ, b = r) : ∃ r : ℝ, a + b = r := by
  obtain ⟨r, rfl⟩ := ha; obtain ⟨s, rfl⟩ := hb
  exact ⟨r + s, (EReal.coe_add r s).symm⟩

/-- The larger of two real entries is a real entry (it is one of the two). -/
theorem max_real {a b : EReal} (ha : ∃ r : ℝ, a = r) (hb : ∃ r : ℝ, b = r) : ∃ r : ℝ, max a b = r := by
  rcases max_choice a b with h | h
  · rw [h]; exact ha
  · rw [h]; exact hb

/-- The rectifier's threshold is the real number 0. -/
theorem zero32_real : ∃ r : ℝ, zero32 = r := ⟨0, by rw [zero32, Ideal.ofBits_zero_f32]; rfl⟩

/-- THE TWO BRACKETINGS OF ONE LAYER AGREE ON REAL ENTRIES: with adj, h and W real,
    max((adj · h) · W + b, 0) = max(adj · (h · W) + b, 0) entry by entry; the bias b may be anything, since it is added
    to the same triple product on both sides. -/
theorem layerAH_eq_layerHW (adj : Fin 10000 → Fin 10000 → EReal) (h : Fin 10000 → Fin 256 → EReal)
    (W : Fin 256 → Fin 256 → EReal) (b : Fin 256 → EReal)
    (hadj : ∀ r l, ∃ a : ℝ, adj r l = a) (hh : ∀ l k, ∃ a : ℝ, h l k = a) (hW : ∀ k j, ∃ a : ℝ, W k j = a) :
    layerAH adj h W b = layerHW adj h W b := by
  funext r j
  show max ((∑ k : Fin 256, (∑ l : Fin 10000, adj r l * h l k) * W k j) + b j) zero32
      = max ((∑ l : Fin 10000, adj r l * (∑ k : Fin 256, h l k * W k j)) + b j) zero32
  rw [ERealSums.sum_mul_sum_assoc (adj r) h (fun k => W k j) (hadj r) hh (fun k => hW k j)]

/-- With real entries everywhere (the bias included) every entry of a layer, feature product first, is real: sums and
    products of reals are real, and the rectifier returns either its argument or 0. -/
theorem layerHW_real (adj : Fin 10000 → Fin 10000 → EReal) (h : Fin 10000 → Fin 256 → EReal)
    (W : Fin 256 → Fin 256 → EReal) (b : Fin 256 → EReal)
    (hadj : ∀ r l, ∃ a : ℝ, adj r l = a) (hh : ∀ l k, ∃ a : ℝ, h l k = a) (hW : ∀ k j, ∃ a : ℝ, W k j = a)
    (hb : ∀ j, ∃ a : ℝ, b j = a) (r : Fin 10000) (j : Fin 256) : ∃ a : ℝ, layerHW adj h W b r j = a := by
  show ∃ a : ℝ, max ((∑ l : Fin 10000, adj r l * (∑ k : Fin 256, h l k * W k j)) + b j) zero32 = a
  exact max_real (add_real (ERealSums.sum_real _ _ fun l => ERealSums.mul_real (hadj r l)
    (ERealSums.sum_real _ _ fun k => ERealSums.mul_real (hh l k) (hW k j))) (hb j)) zero32_real

/-- The same for the layer with the neighbourhood sum first (it is the same array). -/
theorem layerAH_real (adj : Fin 10000 → Fin 10000 → EReal) (h : Fin 10000 → Fin 256 → EReal)
    (W : Fin 256 → Fin 256 → EReal) (b : Fin 256 → EReal)
    (hadj : ∀ r l, ∃ a : ℝ, adj r l = a) (hh : ∀ l k, ∃ a : ℝ, h l k = a) (hW : ∀ k j, ∃ a : ℝ, W k j = a)
    (hb : ∀ j, ∃ a : ℝ, b j = a) (r : Fin 10000) (j : Fin 256) : ∃ a : ℝ, layerAH adj h W b r j = a := by
  rw [layerAH_eq_layerHW adj h W b hadj hh hW]
  exact layerHW_real adj h W b hadj hh hW hb r j

/-- THE TWO NETWORKS AGREE when adj, x, W1, b1 and W2 have real entries: the first layers agree, their common result is
    real (this is where b1 is needed), so the second layers agree; the logits and the log-softmax are then taken of the
    same array, whatever b2, Wf and bf are. -/
theorem netAH_eq_netHW (adj : Fin 10000 → Fin 10000 → EReal) (x : Fin 10000 → Fin 256 → EReal)
    (W1 : Fin 256 → Fin 256 → EReal) (b1 : Fin 256 → EReal) (W2 : Fin 256 → Fin 256 → EReal) (b2 : Fin 256 → EReal)
    (Wf : Fin 256 → Fin 64 → EReal) (bf : Fin 64 → EReal)
    (hadj : ∀ r l, ∃ a : ℝ, adj r l = a) (hx : ∀ l k, ∃ a : ℝ, x l k = a) (hW1 : ∀ k j, ∃ a : ℝ, W1 k j = a)
    (hb1 : ∀ j, ∃ a : ℝ, b1 j = a) (hW2 : ∀ k j, ∃ a : ℝ, W2 k j = a) :
    netAH adj x W1 b1 W2 b2 Wf bf = netHW adj x W1 b1 W2 b2 Wf bf := by
  funext r f
  unfold netAH netHW
  rw [layerAH_eq_layerHW adj x W1 b1 hadj hx hW1,
    layerAH_eq_layerHW adj (layerHW adj x W1 b1) W2 b2 hadj (layerHW_real adj x W1 b1 hadj hx hW1 hb1) hW2]

end Cert.Gcn

end
-- ==== Proof.Finite.lean ====
/-
  From the precondition to real entries.  The precondition is the conjunction, over the eight argument arrays, of
  "every entry x has |x| < +∞", each conjunct a reduction by `and` over the whole array of the entrywise comparison
  of |x| with the f32 word of +∞.  On the extended reals |x| = max x (−x) is below ⊤ exactly when x is neither ⊤ nor ⊥,
  that is, when x is (the image of) a real number.
-/
import proofs.«116359_g171798692301_cont_8to1_52_15_alg».proof.Defs
import Idealize.ShloMosaic.Lib.ReduceAll

noncomputable section

namespace Cert.Gcn.Finite

open Idealize.ShloMosaic Idealize.SL.Sem
open Cert.Pre_finite_inputs

/-- The result of a reduction over every axis has one index. -/
instance : Subsingleton S_.Idx := ⟨fun a b => funext fun d => d.elim0⟩

/-- The f32 word 0x7F800000 denotes +∞. -/
theorem ofBits_inf : Ideal.ofBits .f32 0x7F800000#32 = ⊤ := by simp [Ideal.ofBits, Ideal.ieee]

/-- An extended real whose absolute value max x (−x) compares below +∞ is a real number. -/
theorem real_of_abs_lt (x : EReal)
    (h : Ideal.cmp .olt (max x (-x)) (Ideal.ofBits .f32 0x7F800000#32) = 1#1) : ∃ a : ℝ, x = a := by
  rw [ofBits_inf] at h
  induction x using EReal.rec with
  | bot => simp [Ideal.cmp] at h
  | coe a => exact ⟨a, rfl⟩
  | top => simp [Ideal.cmp] at h

/-- One conjunct: if the `and` over a whole array of "|x| < +∞" is 1, every entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ a : ℝ, x i = (a : EReal) := fun i =>
  real_of_abs_lt (x i) (Host.reduce_andi_all _ _ hr hu j e i)

/-- THE PRECONDITION DECODED: if `finite_inputs` of eight arrays is 1, every entry of every one of them is a real. -/
theorem real_of_fn [Facts]
    (a0 : FVec Ideal S10000x256 .f32) (a1 : FVec Ideal S10000x10000 .f32) (a2 : FVec Ideal S256x256 .f32)
    (a3 : FVec Ideal S256 .f32) (a4 : FVec Ideal S256x256 .f32) (a5 : FVec Ideal S256 .f32)
    (a6 : FVec Ideal S256x64 .f32) (a7 : FVec Ideal S64 .f32)
    (h : fn (F := Ideal) a0 a1 a2 a3 a4 a5 a6 a7 = fun _ => 1#1) :
    (∀ i, ∃ a : ℝ, a0 i = (a : EReal)) ∧ (∀ i, ∃ a : ℝ, a1 i = (a : EReal)) ∧ (∀ i, ∃ a : ℝ, a2 i = (a : EReal)) ∧
    (∀ i, ∃ a : ℝ, a3 i = (a : EReal)) ∧ (∀ i, ∃ a : ℝ, a4 i = (a : EReal)) ∧ (∀ i, ∃ a : ℝ, a5 i = (a : EReal)) ∧
    (∀ i, ∃ a : ℝ, a6 i = (a : EReal)) ∧ (∀ i, ∃ a : ℝ, a7 i = (a : EReal)) := by
  have e := congrFun h (fun a => a.elim0)
  dsimp only [fn, fn_part1, fn_part2] at e
  simp only [andi, IntOp.andi_eq_one] at e
  obtain ⟨⟨⟨⟨⟨⟨⟨h0, h1⟩, h2⟩, h3⟩, h4⟩, h5⟩, h6⟩, h7⟩ := e
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6, real_of_all a7 _ _ _ _ h7⟩

/-- The precondition of the idealized kernel gives, on every device, real entries in all eight argument arrays. -/
theorem real_of_pre [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal)) ∧
    (∀ i, ∃ a : ℝ, m ((c.tc : Thread Cert.KernelIdeal.nD Cert.KernelIdeal.τ).loc Cert.KernelIdeal.main_arg1) i = (a : EReal)) ∧
    (∀ i, ∃ a : ℝ, m ((c.tc : Thread Cert.KernelIdeal.nD Cert.KernelIdeal.τ).loc Cert.KernelIdeal.main_arg2) i = (a : EReal)) ∧
    (∀ i, ∃ a : ℝ, m ((c.tc : Thread Cert.KernelIdeal.nD Cert.KernelIdeal.τ).loc Cert.KernelIdeal.main_arg3) i = (a : EReal)) ∧
    (∀ i, ∃ a : ℝ, m ((c.tc : Thread Cert.KernelIdeal.nD Cert.KernelIdeal.τ).loc Cert.KernelIdeal.main_arg4) i = (a : EReal)) ∧
    (∀ i, ∃ a : ℝ, m ((c.tc : Thread Cert.KernelIdeal.nD Cert.KernelIdeal.τ).loc Cert.KernelIdeal.main_arg5) i = (a : EReal)) ∧
    (∀ i, ∃ a : ℝ, m ((c.tc : Thread Cert.KernelIdeal.nD Cert.KernelIdeal.τ).loc Cert.KernelIdeal.main_arg6) i = (a : EReal)) ∧
    (∀ i, ∃ a : ℝ, m ((c.tc : Thread Cert.KernelIdeal.nD Cert.KernelIdeal.τ).loc Cert.KernelIdeal.main_arg7) i = (a : EReal)) :=
  real_of_fn _ _ _ _ _ _ _ _ (h c)

end Cert.Gcn.Finite

end
-- ==== Proof.lean ====
/-
  The certificate of a two-layer graph-convolution network with a final linear layer and a row-wise log-softmax:
  a Pallas kernel on a 50-point grid against its jnp reference, over the extended reals.

  The kernel computes each layer as  max((adj · h) · W + b, 0)  — the neighbourhood sum first, 400 rows of the
  10000 at a grid point, the first layer kept in a scratch buffer over the first 25 points and read whole by the
  last 25 — and the reference as  max(adj · (h · W) + b, 0).  The two bracketings of the triple product agree
  when the entries are real (finite sums commute, products distribute), which the precondition gives for the
  inputs and which the rectifier preserves for the first layer; the final linear layer and the log-softmax are
  the same operations on both sides.  So both programs end with the specification's array (Proof/Spec.lean).

  The frames: both printings of the kernel run one pipeline whose first two windows read one array, the adjacency
  matrix, at the two halves of its share; the body is run symbolically once per branch, and the scratch buffer is
  tracked as agreeing with the first layer on the rows stored so far.  The reference is a straight line of host
  operations.  The idealization rewrote no operation, so there is nothing to preserve.
-/
import proofs.«116359_g171798692301_cont_8to1_52_15_alg».proof.Defs
import proofs.«116359_g171798692301_cont_8to1_52_15_alg».proof.Proof.Gen.Kernel
import proofs.«116359_g171798692301_cont_8to1_52_15_alg».proof.Proof.Gen.KernelIdeal
import proofs.«116359_g171798692301_cont_8to1_52_15_alg».proof.Proof.Gen.ReferenceIdeal
import proofs.«116359_g171798692301_cont_8to1_52_15_alg».proof.Proof.Gen.Pre_finite_inputs
import proofs.«116359_g171798692301_cont_8to1_52_15_alg».proof.Proof.KBFrame
import proofs.«116359_g171798692301_cont_8to1_52_15_alg».proof.Proof.KIRun
import proofs.«116359_g171798692301_cont_8to1_52_15_alg».proof.Proof.RefRun
import proofs.«116359_g171798692301_cont_8to1_52_15_alg».proof.Proof.RefIsSpec
import proofs.«116359_g171798692301_cont_8to1_52_15_alg».proof.Proof.SpecLaw
import proofs.«116359_g171798692301_cont_8to1_52_15_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments unchanged. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the extended reals both programs, run on the same finite arguments, end with the specification's array: the
    kernel's result is the network with the neighbourhood sums taken first, the reference's the network with the
    feature products taken first, and on real entries the two are one function. -/
theorem algebraic : Cert.algebraic_KernelIdeal_ReferenceIdeal := by
  intro m ρ m' ρ' hpre hagree
  refine ⟨fun c => Cert.KernelIdeal.Gen.G m c, Cert.KernelIdeal.Gen.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := Cert.Gcn.Finite.real_of_pre m hpre c
  obtain ⟨a0, a1, a2, a3, a4, a5, a6, a7⟩ := hagree c
  funext i
  refine (Cert.ReferenceIdeal.RefValue.res_main_v16_eq_netHW m' c i).trans ?_
  rw [a0, a1, a2, a3, a4, a5, a6, a7]
  exact (congrFun (congrFun (Cert.Gcn.netAH_eq_netHW (Cert.KernelIdeal.Gen.aADJ m c) (Cert.KernelIdeal.Gen.aX m c)
    (Cert.KernelIdeal.Gen.aW1 m c) (Cert.KernelIdeal.Gen.aB1 m c) (Cert.KernelIdeal.Gen.aW2 m c) (Cert.KernelIdeal.Gen.aB2 m c)
    (Cert.KernelIdeal.Gen.aWF m c) (Cert.KernelIdeal.Gen.aBF m c)
    (fun r l => h1 _) (fun l k => h0 _) (fun k j => h2 _) (fun j => h3 _) (fun k j => h4 _)) _) _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
